-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x20000 : Shape := ⟨2, ![128, 20000]⟩
abbrev S1x64 : Shape := ⟨2, ![1, 64]⟩
abbrev S64 : Shape := ⟨1, ![64]⟩
abbrev S64x9 : Shape := ⟨2, ![64, 9]⟩
abbrev S9 : Shape := ⟨1, ![9]⟩
abbrev S_ : Shape := ⟨0, ![]⟩

class Facts : Prop where
  bcast_S_S128x20000 : S_.BroadcastsInDim S128x20000 (![] : Fin 0 → Fin S128x20000.rank)
  reducesTo_S128x20000_S_d0_1 : S128x20000.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x9 : S_.BroadcastsInDim S64x9 (![] : Fin 0 → Fin S64x9.rank)
  reducesTo_S64x9_S_d0_1 : S64x9.ReducesTo [0, 1] S_
  bcast_S_S9 : S_.BroadcastsInDim S9 (![] : Fin 0 → Fin S9.rank)
  reducesTo_S9_S_d0 : S9.ReducesTo [0] S_

variable [Facts]

def fn_part1 {F : FTy → Type} [FloatOps F] (main_arg4 : FVec F S9 .f32) (main_v13 : IVec S_ 1) (main_v16 : IVec S64x9 1) : IVec S_ 1 :=
  let main_c_5 : IVec S_ 1 := constantI S_ 1 1#1
  let main_v17 : IVec S_ 1 := (fun x v => Host.reduce IntOp.andi x v reducesTo_S64x9_S_d0_1 h_S_) main_v16 main_c_5
  let main_v18 : IVec S_ 1 := andi main_v13 main_v17
  let main_v19 : FVec F S9 .f32 := Host.absf main_arg4
  let main_cst_6 : FVec F S_ .f32 := constant S_ .f32 0x7F800000#32
  let main_v20 : FVec F S9 .f32 := broadcastInDim S9 ![] bcast_S_S9 main_cst_6
  let main_v21 : IVec S9 1 := cmpf .olt main_v19 main_v20
  let main_c_7 : IVec S_ 1 := constantI S_ 1 1#1
  let main_v22 : IVec S_ 1 := (fun x v => Host.reduce IntOp.andi x v reducesTo_S9_S_d0 h_S_) main_v21 main_c_7
  let main_v23 : IVec S_ 1 := andi main_v18 main_v22
  main_v23

def fn {F : FTy → Type} [FloatOps F] (main_arg0 : FVec F S128x20000 .f32) (main_arg1 : FVec F S1x64 .f32) (main_arg2 : FVec F S64 .f32) (main_arg3 : FVec F S64x9 .f32) (main_arg4 : FVec F S9 .f32) : IVec S_ 1 :=
  let main_v0 : FVec F S128x20000 .f32 := Host.absf main_arg0
  let main_cst : FVec F S_ .f32 := constant S_ .f32 0x7F800000#32
  let main_v1 : FVec F S128x20000 .f32 := broadcastInDim S128x20000 ![] bcast_S_S128x20000 main_cst
  let main_v2 : IVec S128x20000 1 := cmpf .olt main_v0 main_v1
  let main_c : IVec S_ 1 := constantI S_ 1 1#1
  let main_v3 : IVec S_ 1 := (fun x v => Host.reduce IntOp.andi x v reducesTo_S128x20000_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x9 .f32 := Host.absf main_arg3
  let main_cst_4 : FVec F S_ .f32 := constant S_ .f32 0x7F800000#32
  let main_v15 : FVec F S64x9 .f32 := broadcastInDim S64x9 ![] bcast_S_S64x9 main_cst_4
  let main_v16 : IVec S64x9 1 := cmpf .olt main_v14 main_v15
  fn_part1 (F := F) main_arg4 main_v13 main_v16
-- ==== Kernel.lean ====
abbrev S128x20000 : Shape := ⟨2, ![128, 20000]⟩
abbrev S1x64 : Shape := ⟨2, ![1, 64]⟩
abbrev S64 : Shape := ⟨1, ![64]⟩
abbrev S64x9 : Shape := ⟨2, ![64, 9]⟩
abbrev S9 : Shape := ⟨1, ![9]⟩
abbrev S_ : Shape := ⟨0, ![]⟩
abbrev S128x20480 : Shape := ⟨2, ![128, 20480]⟩
abbrev S128x10x20480 : Shape := ⟨3, ![128, 10, 20480]⟩
abbrev S128x2048 : Shape := ⟨2, ![128, 2048]⟩
abbrev S128x10x2048 : Shape := ⟨3, ![128, 10, 2048]⟩
abbrev S128x128 : Shape := ⟨2, ![128, 128]⟩
abbrev S128x128x1 : Shape := ⟨3, ![128, 128, 1]⟩
abbrev S1x1x64 : Shape := ⟨3, ![1, 1, 64]⟩
abbrev S128x128x64 : Shape := ⟨3, ![128, 128, 64]⟩
abbrev S16384x64 : Shape := ⟨2, ![16384, 64]⟩
abbrev S16384x9 : Shape := ⟨2, ![16384, 9]⟩
abbrev S128x128x9 : Shape := ⟨3, ![128, 128, 9]⟩
abbrev S1x1x9 : Shape := ⟨3, ![1, 1, 9]⟩
abbrev S128x9x128 : Shape := ⟨3, ![128, 9, 128]⟩
abbrev S128x1x128 : Shape := ⟨3, ![128, 1, 128]⟩
abbrev S128x10x128 : Shape := ⟨3, ![128, 10, 128]⟩
abbrev S128x10x20000 : Shape := ⟨3, ![128, 10, 20000]⟩
abbrev S128x20000x10 : Shape := ⟨3, ![128, 20000, 10]⟩

abbrev nBuf : Space → Nat
  | .hbm => 13
  | .vmem => 10
  | .smem => 0
  | _ => 0

abbrev bufTy : (tb : Table) → Fin (tcTables nBuf tb) → BufTy
  | .hbm, ⟨0, _⟩ => ⟨S128x20000, .f32⟩
  | .hbm, ⟨1, _⟩ => ⟨S1x64, .f32⟩
  | .hbm, ⟨2, _⟩ => ⟨S64, .f32⟩
  | .hbm, ⟨3, _⟩ => ⟨S64x9, .f32⟩
  | .hbm, ⟨4, _⟩ => ⟨S9, .f32⟩
  | .hbm, ⟨5, _⟩ => ⟨S_, .i32⟩
  | .hbm, ⟨6, _⟩ => ⟨S_, .f32⟩
  | .hbm, ⟨7, _⟩ => ⟨S128x20480, .f32⟩
  | .hbm, ⟨8, _⟩ => ⟨S128x10x20480, .f32⟩
  | .hbm, ⟨9, _⟩ => ⟨S128x20480, .f32⟩
  | .hbm, ⟨10, _⟩ => ⟨S128x10x20000, .f32⟩
  | .hbm, ⟨11, _⟩ => ⟨S128x20000x10, .f32⟩
  | .hbm, ⟨12, _⟩ => ⟨S128x20000, .f32⟩
  | .local _ .vmem, ⟨0, _⟩ => ⟨S128x2048, .f32⟩
  | .local _ .vmem, ⟨1, _⟩ => ⟨S128x2048, .f32⟩
  | .local _ .vmem, ⟨2, _⟩ => ⟨S1x64, .f32⟩
  | .local _ .vmem, ⟨3, _⟩ => ⟨S64, .f32⟩
  | .local _ .vmem, ⟨4, _⟩ => ⟨S64x9, .f32⟩
  | .local _ .vmem, ⟨5, _⟩ => ⟨S9, .f32⟩
  | .local _ .vmem, ⟨6, _⟩ => ⟨S128x10x2048, .f32⟩
  | .local _ .vmem, ⟨7, _⟩ => ⟨S128x10x2048, .f32⟩
  | .local _ .vmem, ⟨8, _⟩ => ⟨S128x2048, .f32⟩
  | .local _ .vmem, ⟨9, _⟩ => ⟨S128x2048, .f32⟩
  | _, _ => ⟨S128x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

@[reducible] def k0_t1_loop : Scf.Loop 32 :=
  let c0_i32 : BitVec 32 := 0#32
  let c16_i32 : BitVec 32 := 16#32
  let v6 : BitVec 32 := Scalar.addi c0_i32 c16_i32
  let c1_i32 : BitVec 32 := 1#32
  ⟨c0_i32, v6, c1_i32⟩
def k0_mult1 (k0_t1 : Fin k0_t1_loop.trips) : BitVec 32 :=
  let c0_i32_7 : BitVec 32 := 0#32
  let c0_i32 : BitVec 32 := 0#32
  let c1_i32 : BitVec 32 := 1#32
  let arg8 : BitVec 32 := Scf.iv c0_i32 c1_i32 k0_t1
  let c1_i32_6 : BitVec 32 := 1#32
  let v7 : BitVec 32 := Scalar.muli arg8 c1_i32_6
  let v8 : BitVec 32 := Scalar.addi c0_i32_7 v7
  let c128_i32 : BitVec 32 := 128#32
  let v9 : BitVec 32 := Scalar.muli v8 c128_i32
  v9
def k0_off1 (k0_t1 : Fin k0_t1_loop.trips) : Fin 2 → Nat :=
  let c0_8 : Index := 0#32
  let c0_i32_7 : BitVec 32 := 0#32
  let c0_i32 : BitVec 32 := 0#32
  let c1_i32 : BitVec 32 := 1#32
  let arg8 : BitVec 32 := Scf.iv c0_i32 c1_i32 k0_t1
  let c1_i32_6 : BitVec 32 := 1#32
  let v7 : BitVec 32 := Scalar.muli arg8 c1_i32_6
  let v8 : BitVec 32 := Scalar.addi c0_i32_7 v7
  let c128_i32 : BitVec 32 := 128#32
  let v9 : BitVec 32 := Scalar.muli v8 c128_i32
  let v10 : BitVec 32 := v9
  let v11 : Index := Scalar.indexCast v10
  ![0, v11.toNat]
def k0_off2 (k0_t1 : Fin k0_t1_loop.trips) : Fin 3 → Nat :=
  let c0_17 : Index := 0#32
  let c0_18 : Index := 0#32
  let c0_i32_7 : BitVec 32 := 0#32
  let c0_i32 : BitVec 32 := 0#32
  let c1_i32 : BitVec 32 := 1#32
  let arg8 : BitVec 32 := Scf.iv c0_i32 c1_i32 k0_t1
  let c1_i32_6 : BitVec 32 := 1#32
  let v7 : BitVec 32 := Scalar.muli arg8 c1_i32_6
  let v8 : BitVec 32 := Scalar.addi c0_i32_7 v7
  let c128_i32 : BitVec 32 := 128#32
  let v9 : BitVec 32 := Scalar.muli v8 c128_i32
  let v10 : BitVec 32 := v9
  let v58 : Index := Scalar.indexCast v10
  ![0, 0, v58.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x10x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  pads_S128x20000_S128x20480_000_04800 : S128x20000.Pads (![0, 0] : Fin 2 → Nat) ![0, 480] ![0, 0] S128x20480
  h_S_ : 0 < S_.numel
  inb_S1x64_S1x64_0_0 : ∀ a, (![0, 0] : Fin 2 → Nat) a + S1x64.size a ≤ S1x64.size a
  h_S1x64 : 0 < S1x64.numel
  shapeCasts_S1x64_S64 : S1x64.ShapeCasts S64
  inb_S64_S64_0 : ∀ a, (![0] : Fin 1 → Nat) a + S64.size a ≤ S64.size a
  h_S64 : 0 < S64.numel
  inb_S64x9_S64x9_0_0 : ∀ a, (![0, 0] : Fin 2 → Nat) a + S64x9.size a ≤ S64x9.size a
  h_S64x9 : 0 < S64x9.numel
  bitsLt_bf16_f32 : FTy.bits .bf16 < FTy.bits .f32
  inb_S9_S9_0 : ∀ a, (![0] : Fin 1 → Nat) a + S9.size a ≤ S9.size a
  h_S9 : 0 < S9.numel
  h_S128x128 : 0 < S128x128.numel
  shapeCasts_S128x128_S128x128 : S128x128.ShapeCasts S128x128
  natLt_1_32 : 1 < 32
  shapeCasts_S128x128_S128x128x1 : S128x128.ShapeCasts S128x128x1
  shapeCasts_S64_S1x1x64 : S64.ShapeCasts S1x1x64
  broadcasts_S128x128x1_S128x128x64 : S128x128x1.Broadcasts S128x128x64
  broadcasts_S1x1x64_S128x128x64 : S1x1x64.Broadcasts S128x128x64
  shapeCasts_S128x128x64_S16384x64 : S128x128x64.ShapeCasts S16384x64
  shapeCasts_S16384x9_S128x128x9 : S16384x9.ShapeCasts S128x128x9
  shapeCasts_S9_S1x1x9 : S9.ShapeCasts S1x1x9
  broadcasts_S1x1x9_S128x128x9 : S1x1x9.Broadcasts S128x128x9
  reduces_S128x128x9_S128x128 : S128x128x9.Reduces [2] S128x128
  broadcasts_S128x128x1_S128x128x9 : S128x128x1.Broadcasts S128x128x9
  transposes_S128x128x9_p0_2_1_S128x9x128 : S128x128x9.Transposes [0, 2, 1] S128x9x128
  shapeCasts_S128x128_S128x1x128 : S128x128.ShapeCasts S128x1x128
  broadcasts_S128x1x128_S128x9x128 : S128x1x128.Broadcasts S128x9x128
  concatenates_S128x1x128_S128x9x128_S128x10x128_d1 : Shape.Concatenates [S128x1x128, S128x9x128] S128x10x128 1
  h_S128x10x128 : 0 < S128x10x128.numel
  slices_S128x10x20480_S128x10x20000_0_0_0 : S128x10x20480.Slices ![0, 0, 0] S128x10x20000
  transposes_S128x10x20000_S128x20000x10_0_2_1 : S128x10x20000.Transposes [0, 2, 1] S128x20000x10
  slices_S128x20480_S128x20000_0_0 : S128x20480.Slices ![0, 0] S128x20000
  dot_S16384x64_S64x9_S16384x9_1_0_0_1_n_n_wf : DotDims.WF S16384x64 S64x9 S16384x9 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x128.size a ≤ S128x2048.size a
  k0_off2_inb : ∀ k0_t1 : Fin k0_t1_loop.trips, ∀ a, (k0_off2 k0_t1) a + S128x10x128.size a ≤ S128x10x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S128x20480.size a
  hwx0_0 : ∀ i : grid0.Coords, EltTy.bits .f32 = 32 ∨ (Rect.block (s := S128x20480) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x9.size a ≤ S64x9.size a
  hwx0_3 : ∀ i : grid0.Coords, EltTy.bits .f32 = 32 ∨ (Rect.block (s := S64x9) S64x9.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S9.size a ≤ S9.size a
  hwx0_4 : ∀ i : grid0.Coords, EltTy.bits .f32 = 32 ∨ (Rect.block (s := S9) S9.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x10x2048.size a ≤ S128x10x20480.size a
  hwx0_5 : ∀ i : grid0.Coords, EltTy.bits .f32 = 32 ∨ (Rect.block (s := S128x10x20480) S128x10x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2048.size a ≤ S128x20480.size a
  hwx0_6 : ∀ i : grid0.Coords, EltTy.bits .f32 = 32 ∨ (Rect.block (s := S128x20480) S128x2048.size (cc0_transform_6 i) (hinb0_6 i)).WholeWords (EltTy.packing .f32)

variable [Facts₀]

def dot_S16384x64_S64x9_S16384x9_1_0_0_1_n_n : DotDims S16384x64 S64x9 S16384x9 where
  lhsContracting := [1]
  rhsContracting := [0]
  lhsNonContracting := [0]
  rhsNonContracting := [1]
  lhsBatch := []
  rhsBatch := []
  wf := dot_S16384x64_S64x9_S16384x9_1_0_0_1_n_n_wf

abbrev win0_0 : Pipeline.Window sig grid0 :=
  Pipeline.Window.ofSpec (Memref.whole main_v0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x9.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S9.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S128x10x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S128x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S128x20000 : Shape := ⟨2, ![128, 20000]⟩
abbrev S1x64 : Shape := ⟨2, ![1, 64]⟩
abbrev S64 : Shape := ⟨1, ![64]⟩
abbrev S64x9 : Shape := ⟨2, ![64, 9]⟩
abbrev S9 : Shape := ⟨1, ![9]⟩
abbrev S_ : Shape := ⟨0, ![]⟩
abbrev S128x20000x1 : Shape := ⟨3, ![128, 20000, 1]⟩
abbrev S1x1x64 : Shape := ⟨3, ![1, 1, 64]⟩
abbrev S128x20000x64 : Shape := ⟨3, ![128, 20000, 64]⟩
abbrev S128x20000x9 : Shape := ⟨3, ![128, 20000, 9]⟩
abbrev S1x1x9 : Shape := ⟨3, ![1, 1, 9]⟩
abbrev S128x20000x10 : Shape := ⟨3, ![128, 20000, 10]⟩

abbrev nBuf : Space → Nat
  | .hbm => 50
  | .vmem => 0
  | .smem => 0
  | _ => 0

abbrev bufTy : (tb : Table) → Fin (tcTables nBuf tb) → BufTy
  | .hbm, ⟨0, _⟩ => ⟨S128x20000, .f32⟩
  | .hbm, ⟨1, _⟩ => ⟨S1x64, .f32⟩
  | .hbm, ⟨2, _⟩ => ⟨S64, .f32⟩
  | .hbm, ⟨3, _⟩ => ⟨S64x9, .f32⟩
  | .hbm, ⟨4, _⟩ => ⟨S9, .f32⟩
  | .hbm, ⟨5, _⟩ => ⟨S_, .f32⟩
  | .hbm, ⟨6, _⟩ => ⟨S128x20000, .f32⟩
  | .hbm, ⟨7, _⟩ => ⟨S128x20000, .i1⟩
  | .hbm, ⟨8, _⟩ => ⟨S128x20000, .f32⟩
  | .hbm, ⟨9, _⟩ => ⟨S128x20000x1, .f32⟩
  | .hbm, ⟨10, _⟩ => ⟨S64, .f32⟩
  | .hbm, ⟨11, _⟩ => ⟨S1x1x64, .f32⟩
  | .hbm, ⟨12, _⟩ => ⟨S128x20000x64, .f32⟩
  | .hbm, ⟨13, _⟩ => ⟨S128x20000x64, .f32⟩
  | .hbm, ⟨14, _⟩ => ⟨S128x20000x64, .f32⟩
  | .hbm, ⟨15, _⟩ => ⟨S1x1x64, .f32⟩
  | .hbm, ⟨16, _⟩ => ⟨S128x20000x64, .f32⟩
  | .hbm, ⟨17, _⟩ => ⟨S128x20000x64, .f32⟩
  | .hbm, ⟨18, _⟩ => ⟨S_, .f32⟩
  | .hbm, ⟨19, _⟩ => ⟨S128x20000x64, .f32⟩
  | .hbm, ⟨20, _⟩ => ⟨S128x20000x64, .i1⟩
  | .hbm, ⟨21, _⟩ => ⟨S_, .f32⟩
  | .hbm, ⟨22, _⟩ => ⟨S128x20000x64, .f32⟩
  | .hbm, ⟨23, _⟩ => ⟨S128x20000x64, .f32⟩
  | .hbm, ⟨24, _⟩ => ⟨S128x20000x64, .f32⟩
  | .hbm, ⟨25, _⟩ => ⟨S128x20000x9, .f32⟩
  | .hbm, ⟨26, _⟩ => ⟨S1x1x9, .f32⟩
  | .hbm, ⟨27, _⟩ => ⟨S128x20000x9, .f32⟩
  | .hbm, ⟨28, _⟩ => ⟨S128x20000x9, .f32⟩
  | .hbm, ⟨29, _⟩ => ⟨S_, .f32⟩
  | .hbm, ⟨30, _⟩ => ⟨S128x20000, .f32⟩
  | .hbm, ⟨31, _⟩ => ⟨S_, .f32⟩
  | .hbm, ⟨32, _⟩ => ⟨S128x20000, .f32⟩
  | .hbm, ⟨33, _⟩ => ⟨S128x20000, .f32⟩
  | .hbm, ⟨34, _⟩ => ⟨S128x20000x1, .f32⟩
  | .hbm, ⟨35, _⟩ => ⟨S128x20000x9, .f32⟩
  | .hbm, ⟨36, _⟩ => ⟨S128x20000x9, .f32⟩
  | .hbm, ⟨37, _⟩ => ⟨S128x20000x9, .f32⟩
  | .hbm, ⟨38, _⟩ => ⟨S_, .f32⟩
  | .hbm, ⟨39, _⟩ => ⟨S128x20000, .f32⟩
  | .hbm, ⟨40, _⟩ => ⟨S128x20000x1, .f32⟩
  | .hbm, ⟨41, _⟩ => ⟨S128x20000x9, .f32⟩
  | .hbm, ⟨42, _⟩ => ⟨S128x20000x9, .f32⟩
  | .hbm, ⟨43, _⟩ => ⟨S128x20000x1, .f32⟩
  | .hbm, ⟨44, _⟩ => ⟨S_, .f32⟩
  | .hbm, ⟨45, _⟩ => ⟨S128x20000x1, .f32⟩
  | .hbm, ⟨46, _⟩ => ⟨S128x20000x1, .f32⟩
  | .hbm, ⟨47, _⟩ => ⟨S128x20000x9, .f32⟩
  | .hbm, ⟨48, _⟩ => ⟨S128x20000x9, .f32⟩
  | .hbm, ⟨49, _⟩ => ⟨S128x20000x10, .f32⟩
  | _, _ => ⟨S128x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  bcast_S_S128x20000 : S_.BroadcastsInDim S128x20000 (![] : Fin 0 → Fin S128x20000.rank)
  bcast_S128x20000_S128x20000x1_0_1 : S128x20000.BroadcastsInDim S128x20000x1 (![0, 1] : Fin 2 → Fin S128x20000x1.rank)
  shapeCasts_S1x64_S64 : S1x64.ShapeCasts S64
  bcast_S64_S1x1x64_2 : S64.BroadcastsInDim S1x1x64 (![2] : Fin 1 → Fin S1x1x64.rank)
  bcast_S128x20000x1_S128x20000x64_0_1_2 : S128x20000x1.BroadcastsInDim S128x20000x64 (![0, 1, 2] : Fin 3 → Fin S128x20000x64.rank)
  bcast_S1x1x64_S128x20000x64_0_1_2 : S1x1x64.BroadcastsInDim S128x20000x64 (![0, 1, 2] : Fin 3 → Fin S128x20000x64.rank)
  bcast_S_S128x20000x64 : S_.BroadcastsInDim S128x20000x64 (![] : Fin 0 → Fin S128x20000x64.rank)
  bcast_S9_S1x1x9_2 : S9.BroadcastsInDim S1x1x9 (![2] : Fin 1 → Fin S1x1x9.rank)
  bcast_S1x1x9_S128x20000x9_0_1_2 : S1x1x9.BroadcastsInDim S128x20000x9 (![0, 1, 2] : Fin 3 → Fin S128x20000x9.rank)
  reducesTo_S128x20000x9_S128x20000_d2 : S128x20000x9.ReducesTo [2] S128x20000
  h_S_ : 0 < S_.numel
  bcast_S128x20000x1_S128x20000x9_0_1_2 : S128x20000x1.BroadcastsInDim S128x20000x9 (![0, 1, 2] : Fin 3 → Fin S128x20000x9.rank)
  bcast_S_S128x20000x1 : S_.BroadcastsInDim S128x20000x1 (![] : Fin 0 → Fin S128x20000x1.rank)
  concatenates_S128x20000x1_S128x20000x9_S128x20000x10_d2 : Shape.Concatenates [S128x20000x1, S128x20000x9] S128x20000x10 2
  dot_S128x20000x64_S64x9_S128x20000x9_2_0_01_1_n_n_wf : DotDims.WF S128x20000x64 S64x9 S128x20000x9 [2] [0] [0, 1] [1] [] []

variable [Facts₀]

def dot_S128x20000x64_S64x9_S128x20000x9_2_0_01_1_n_n : DotDims S128x20000x64 S64x9 S128x20000x9 where
  lhsContracting := [2]
  rhsContracting := [0]
  lhsNonContracting := [0, 1]
  rhsNonContracting := [1]
  lhsBatch := []
  rhsBatch := []
  wf := dot_S128x20000x64_S64x9_S128x20000x9_2_0_01_1_n_n_wf

class Facts : Prop extends Facts₀ where

variable [Facts]
-- ==== Proof.Cell.lean ====
/-
  One entry of the expression quantizer, over the extended reals.

  For one expression value x the network computes: the mask [x ≠ 0]; a hidden layer of 64 units,
  h k = leaky (x * w1 k + b1 k) with leaky h = h when 0 ≤ h and slope * h otherwise; nine logits
  l j = (sum over k of h k * w2 k j) + b2 j; their softmax taken as exp (l j - top) / sum of exp (l j' - top), where
  top is the largest logit (folded from -infinity); and ten output probabilities: 1 - mask in bin 0, softmax j * mask
  in bin j + 1. Everything that is the same on the two sides of the claim is kept as it is written there: the float
  literals as their binary words, the order of every product and difference, and the two maxima with -infinity.
-/
import Idealize.ShloMosaic.PureOps.Ideal
import Idealize.ShloMosaic.PureOps.Ideal.Laws
import Idealize.ShloMosaic.Lib.ValueIdx

noncomputable section

namespace Cert.Cell

open Idealize.ShloMosaic

/-- The rectifier with a small slope on the negative side. -/
def leaky (h : EReal) : EReal :=
  Scalar.select (Ideal.cmp .oge h (Ideal.ofBits .f32 0x00000000#32)) h (Ideal.ofBits .f32 0x3C23D70A#32 * h)

/-- Hidden unit k at the expression value x. -/
def hidden (x : EReal) (w1 b1 : Fin 64 → EReal) (k : Fin 64) : EReal := leaky (x * w1 k + b1 k)

/-- Logit j: the hidden layer against column j of the second weight matrix, plus the bias. -/
def logit (x : EReal) (w1 b1 : Fin 64 → EReal) (w2 : Fin 64 → Fin 9 → EReal) (b2 : Fin 9 → EReal) (j : Fin 9) : EReal :=
  (∑ k : Fin 64, hidden x w1 b1 k * w2 k j) + b2 j

/-- The largest of nine numbers, folded from -infinity and compared with -infinity once more. -/
def top (l : Fin 9 → EReal) : EReal :=
  max (Ideal.ofBits .f32 0xFF800000#32) ((Finset.univ : Finset (Fin 9)).fold max (Ideal.ofBits .f32 0xFF800000#32) l)

/-- The softmax of nine numbers, shifted by their largest. -/
def softmax (l : Fin 9 → EReal) (j : Fin 9) : EReal :=
  Ideal.div (Ideal.exp (l j - top l)) (∑ j' : Fin 9, Ideal.exp (l j' - top l))

/-- 1 where the expression value is not zero, 0 where it is. -/
def mask (x : EReal) : EReal := (((Ideal.cmp .une x (Ideal.ofBits .f32 0x00000000#32)).toNat : ℝ) : EReal)

/-- The ten output probabilities of one entry. -/
def probs (x : EReal) (w1 b1 : Fin 64 → EReal) (w2 : Fin 64 → Fin 9 → EReal) (b2 : Fin 9 → EReal) (q : Fin 10) : EReal :=
  if h : q.val = 0 then Ideal.ofBits .f32 0x3F800000#32 - mask x
  else softmax (logit x w1 b1 w2 b2) ⟨q.val - 1, by omega⟩ * mask x

/-- The first weight matrix, of one row, as the family of its 64 entries. -/
def rowOf (x1 : (⟨2, ![1, 64]⟩ : Shape).Idx → EReal) : Fin 64 → EReal := fun k => x1 (ValueIdx.ix2 0 k)
/-- A vector as the family of its entries. -/
def vecOf {n : Nat} (x : (⟨1, ![n]⟩ : Shape).Idx → EReal) : Fin n → EReal := fun k => x (ValueIdx.ix1 k)
/-- A matrix as the family of its entries. -/
def matOf {n m : Nat} (x : (⟨2, ![n, m]⟩ : Shape).Idx → EReal) : Fin n → Fin m → EReal := fun k j => x (ValueIdx.ix2 k j)

/-- The ten output probabilities of one entry, from the expression value and the four weight arrays. -/
def entry (x : EReal) (x1 : (⟨2, ![1, 64]⟩ : Shape).Idx → EReal) (x2 : (⟨1, ![64]⟩ : Shape).Idx → EReal)
    (x3 : (⟨2, ![64, 9]⟩ : Shape).Idx → EReal) (x4 : (⟨1, ![9]⟩ : Shape).Idx → EReal) (q : Fin 10) : EReal :=
  probs x (rowOf x1) (vecOf x2) (matOf x3) (vecOf x4) q

/-- A one-bit word widened to 32 bits and read as a signed integer is the bit read as a natural number. -/
theorem setWidth_toInt (b : BitVec 1) : (((b.setWidth 32).toInt : ℝ) : EReal) = ((b.toNat : ℝ) : EReal) := by
  rcases BitVec.eq_zero_or_eq_one b with h | h <;> subst h <;> simp

/-- The mask as a kernel computes it: the ordered comparison, widened, converted as a signed integer. -/
theorem mask_widened (x : EReal) :
    ((((Ideal.cmp .one x (Ideal.ofBits .f32 0x00000000#32)).setWidth 32).toInt : ℝ) : EReal) = mask x := by
  rw [setWidth_toInt]; rfl

end Cert.Cell

end
-- ==== Proof.RefCell.lean ====
/-
  The reference at one entry.

  The reference applies the network to the whole [128, 20000] array at once: every operation is pointwise in the
  entry (b, g), a broadcast along the hidden or the bin axis, or a contraction or reduction along that axis. Read at
  (b, g, q) its first result is therefore the entry's q-th output probability computed from the expression value at
  (b, g), and its second result at (b, g) is the entry's mask.
-/
import proofs.«111675_j25323127177636_2_alg».proof.Proof.RefReadP
import proofs.«111675_j25323127177636_2_alg».proof.Proof.Cell
import Idealize.ShloMosaic.PureOps.Reduce
import Idealize.ShloMosaic.PureOps.Ideal.Laws
import Idealize.ShloMosaic.Lib.Pipeline.Value
import Idealize.ShloMosaic.Lib.ValueIdx

noncomputable section

namespace Cert.ReferenceIdeal.AtEntry

open Cert.ReferenceIdeal Cert.ReferenceIdeal.Gen Cert.ReferenceIdeal.ReadP Idealize.ShloMosaic Idealize.ShloMosaic.ValueIdx
open Cert.Cell

variable (x0 : (⟨S128x20000, .f32⟩ : BufTy).Contents (Elt Ideal)) (x1 : (⟨S1x64, .f32⟩ : BufTy).Contents (Elt Ideal))
  (x2 : (⟨S64, .f32⟩ : BufTy).Contents (Elt Ideal)) (x3 : (⟨S64x9, .f32⟩ : BufTy).Contents (Elt Ideal))
  (x4 : (⟨S9, .f32⟩ : BufTy).Contents (Elt Ideal))

/-- The mask result at (b, g). -/
theorem mask_apply (b : Fin 128) (g : Fin 20000) : val_main_v2 (F := Ideal) x0 (ix2 b g) = mask (x0 (ix2 b g)) := by
  rw [val_main_v2_apply, val_main_v1_apply, val_main_v0_apply]
  rfl

/-- The pre-activation of hidden unit k at (b, g): x * w1 k + b1 k. -/
theorem pre_apply (b : Fin 128) (g : Fin 20000) (k : Fin 64) :
    val_main_v11 (F := Ideal) x0 x1 x2 (ix3 b g k) = x0 (ix2 b g) * rowOf x1 k + vecOf x2 k := by
  have e0 : idx_main_v3 (idx_main_v6 (ix3 b g k)) = ix2 b g :=
    funext fun a => by match a with | ⟨0, _⟩ => rfl | ⟨1, _⟩ => rfl
  have e1 : idx_main_v4 (idx_main_v5 (idx_main_v7 (ix3 b g k))) = ix2 0 k :=
    funext fun a => Fin.ext (by match a with | ⟨0, _⟩ => rfl | ⟨1, _⟩ => exact Nat.mod_eq_of_lt k.isLt)
  have e2 : idx_main_v9 (idx_main_v10 (ix3 b g k)) = ix1 k :=
    funext fun a => by match a with | ⟨0, _⟩ => rfl
  rw [val_main_v11_apply, val_main_v8_apply, val_main_v6_apply, val_main_v3_apply, val_main_v7_apply, val_main_v5_apply,
    val_main_v4_apply, val_main_v10_apply, val_main_v9_apply, e0, e1, e2]
  rfl

/-- Hidden unit k at (b, g). -/
theorem hidden_apply (b : Fin 128) (g : Fin 20000) (k : Fin 64) :
    val_main_v16 (F := Ideal) x0 x1 x2 (ix3 b g k) = hidden (x0 (ix2 b g)) (rowOf x1) (vecOf x2) k := by
  rw [val_main_v16_apply, val_main_v13_apply, val_main_v15_apply, val_main_v12_apply, val_main_v14_apply, pre_apply]
  rfl

/-- Logit j at (b, g). -/
theorem logit_apply (b : Fin 128) (g : Fin 20000) (j : Fin 9) :
    val_main_v20 (F := Ideal) x0 x1 x2 x3 x4 (ix3 b g j)
      = logit (x0 (ix2 b g)) (rowOf x1) (vecOf x2) (matOf x3) (vecOf x4) j := by
  have e3 : idx_main_v18 (idx_main_v19 (ix3 b g j)) = ix1 j :=
    funext fun a => by match a with | ⟨0, _⟩ => rfl
  rw [val_main_v20_apply, val_main_v17_apply, val_main_v19_apply, val_main_v18_apply, e3]
  unfold logit
  refine congrArg (· + vecOf x4 j) (Finset.sum_congr rfl fun k _ => ?_)
  have el : lidx_main_v17 (ix3 b g j) k = ix3 b g k :=
    funext fun a => by match a with | ⟨0, _⟩ => rfl | ⟨1, _⟩ => rfl | ⟨2, _⟩ => rfl
  have er : ridx_main_v17 (ix3 b g j) k = ix2 k j :=
    funext fun a => by match a with | ⟨0, _⟩ => rfl | ⟨1, _⟩ => rfl
  rw [el, er, hidden_apply]
  rfl

/-- The largest logit at (b, g), as the reference takes it: a reduce by maximum from -infinity, then one more
    maximum with -infinity. -/
theorem top_apply (b : Fin 128) (g : Fin 20000) :
    val_main_v23 (F := Ideal) x0 x1 x2 x3 x4 (ix2 b g)
      = top (logit (x0 (ix2 b g)) (rowOf x1) (vecOf x2) (matOf x3) (vecOf x4)) := by
  have h : Shape.Reduces S128x20000x9 [2] S128x20000 := by decide
  rw [val_main_v23_apply, val_main_v22_apply]
  unfold val_main_v21
  rw [Host.reduce_eq_fold_single FloatOps.maximumf _ _ reducesTo_S128x20000x9_S128x20000_d2 h h_S_]
  have hf : (val_main_v20 (F := Ideal) x0 x1 x2 x3 x4 ∘ h.lift (ix2 b g))
      = logit (x0 (ix2 b g)) (rowOf x1) (vecOf x2) (matOf x3) (vecOf x4) := funext fun (j : Fin 9) => by
    have ej : h.lift (ix2 b g) j = ix3 b g j :=
      funext fun a => Fin.ext (by match a with | ⟨0, _⟩ => rfl | ⟨1, _⟩ => rfl | ⟨2, _⟩ => rfl)
    show val_main_v20 (F := Ideal) x0 x1 x2 x3 x4 (h.lift (ix2 b g) j) = _
    rw [ej, logit_apply]
  rw [hf]
  rfl

/-- exp (logit j - top) at (b, g). -/
theorem shifted_apply (b : Fin 128) (g : Fin 20000) (j : Fin 9) :
    val_main_v27 (F := Ideal) x0 x1 x2 x3 x4 (ix3 b g j)
      = Ideal.exp (logit (x0 (ix2 b g)) (rowOf x1) (vecOf x2) (matOf x3) (vecOf x4) j
          - top (logit (x0 (ix2 b g)) (rowOf x1) (vecOf x2) (matOf x3) (vecOf x4))) := by
  have e : idx_main_v24 (idx_main_v25 (ix3 b g j)) = ix2 b g :=
    funext fun a => by match a with | ⟨0, _⟩ => rfl | ⟨1, _⟩ => rfl
  rw [val_main_v27_apply, val_main_v26_apply, val_main_v25_apply, val_main_v24_apply, e, logit_apply, top_apply]
  rfl

/-- The softmax of the logits at (b, g), bin j. -/
theorem softmax_apply (b : Fin 128) (g : Fin 20000) (j : Fin 9) :
    val_main_v31 (F := Ideal) x0 x1 x2 x3 x4 (ix3 b g j)
      = softmax (logit (x0 (ix2 b g)) (rowOf x1) (vecOf x2) (matOf x3) (vecOf x4)) j := by
  have e : idx_main_v29 (idx_main_v30 (ix3 b g j)) = ix2 b g :=
    funext fun a => by match a with | ⟨0, _⟩ => rfl | ⟨1, _⟩ => rfl
  have hs : ∀ j' : Fin 9, val_main_v27 (F := Ideal) x0 x1 x2 x3 x4 (idx_main_v28 (ix2 b g) j')
      = Ideal.exp (logit (x0 (ix2 b g)) (rowOf x1) (vecOf x2) (matOf x3) (vecOf x4) j'
          - top (logit (x0 (ix2 b g)) (rowOf x1) (vecOf x2) (matOf x3) (vecOf x4))) := fun j' => by
    have ej : idx_main_v28 (ix2 b g) j' = ix3 b g j' :=
      funext fun a => by match a with | ⟨0, _⟩ => rfl | ⟨1, _⟩ => rfl | ⟨2, _⟩ => rfl
    rw [ej, shifted_apply]
  rw [val_main_v31_apply, val_main_v30_apply, val_main_v29_apply, val_main_v28_apply, e, shifted_apply]
  simp only [hs]
  show Ideal.div _ (Ideal.ofBits .f32 0x00000000#32 + _) = _
  rw [Ideal.ofBits_zero_f32, zero_add]
  rfl

/-- The first result at (b, g, q): the entry's q-th output probability. -/
theorem probs_apply (b : Fin 128) (g : Fin 20000) (q : Fin 10) :
    val_main_v37 (F := Ideal) x0 x1 x2 x3 x4 (ix3 b g q) = entry (x0 (ix2 b g)) x1 x2 x3 x4 q := by
  have em : ∀ z : Fin 1, val_main_v32 (F := Ideal) x0 (ix3 b g z) = mask (x0 (ix2 b g)) := fun z => by
    have e : idx_main_v32 (ix3 b g z) = ix2 b g :=
      funext fun a => by match a with | ⟨0, _⟩ => rfl | ⟨1, _⟩ => rfl
    rw [val_main_v32_apply, e, mask_apply]
  unfold val_main_v37 entry probs
  by_cases hq : q.val = 0
  · rw [dif_pos hq]
    rw [concatenate_pair_apply_left (t := S128x20000x10) (s₁ := S128x20000x1) (s₂ := S128x20000x9) 2 _ _ _ (ix3 b g q) rfl (ix3 b g (0 : Fin 1)) (fun a => by
      match a with
      | ⟨0, _⟩ => rfl
      | ⟨1, _⟩ => rfl
      | ⟨2, _⟩ => exact hq.symm)]
    rw [val_main_v34_apply, val_main_v33_apply, em]
    rfl
  · rw [dif_neg hq]
    rw [concatenate_pair_apply_right (t := S128x20000x10) (s₁ := S128x20000x1) (s₂ := S128x20000x9) 2 _ _ _ (ix3 b g q) rfl rfl (ix3 b g (⟨q.val - 1, by omega⟩ : Fin 9)) (fun a ha => by
      match a with
      | ⟨0, _⟩ => rfl
      | ⟨1, _⟩ => rfl
      | ⟨2, _⟩ => exact absurd rfl ha) (by show q.val - 1 + 1 = q.val; omega)]
    have e35 : idx_main_v35 (ix3 b g (⟨q.val - 1, by omega⟩ : Fin 9)) = ix3 b g (0 : Fin 1) :=
      funext fun a => by match a with | ⟨0, _⟩ => rfl | ⟨1, _⟩ => rfl | ⟨2, _⟩ => rfl
    rw [val_main_v36_apply, softmax_apply, val_main_v35_apply, e35, em]
    rfl

end Cert.ReferenceIdeal.AtEntry

end
-- ==== Proof.Outputs.lean ====
/-
  The two results as functions of the five argument arrays.

  The probabilities result, [128, 20000, 10], holds at (b, g, q) the q-th output probability of the entry computed from
  the expression value at (b, g); the mask result, [128, 20000], holds the entry's mask. Both programs are shown to end
  with exactly these two arrays.
-/
import proofs.«111675_j25323127177636_2_alg».proof.Proof.Cell
import Idealize.ShloMosaic.Lib.ValueIdx

noncomputable section

namespace Cert.Cell

open Idealize.ShloMosaic Idealize.ShloMosaic.ValueIdx

/-- The probabilities result. -/
def outProbs (a0 : (⟨2, ![128, 20000]⟩ : Shape).Idx → EReal) (a1 : (⟨2, ![1, 64]⟩ : Shape).Idx → EReal)
    (a2 : (⟨1, ![64]⟩ : Shape).Idx → EReal) (a3 : (⟨2, ![64, 9]⟩ : Shape).Idx → EReal) (a4 : (⟨1, ![9]⟩ : Shape).Idx → EReal) :
    (⟨3, ![128, 20000, 10]⟩ : Shape).Idx → EReal := fun y =>
  entry (a0 (ix2 (⟨(y 0).val, (y 0).isLt⟩ : Fin 128) (⟨(y 1).val, (y 1).isLt⟩ : Fin 20000))) a1 a2 a3 a4 (⟨(y 2).val, (y 2).isLt⟩ : Fin 10)

/-- The mask result. -/
def outMask (a0 : (⟨2, ![128, 20000]⟩ : Shape).Idx → EReal) : (⟨2, ![128, 20000]⟩ : Shape).Idx → EReal := fun y => mask (a0 y)

theorem outProbs_apply (a0 : (⟨2, ![128, 20000]⟩ : Shape).Idx → EReal) (a1 : (⟨2, ![1, 64]⟩ : Shape).Idx → EReal)
    (a2 : (⟨1, ![64]⟩ : Shape).Idx → EReal) (a3 : (⟨2, ![64, 9]⟩ : Shape).Idx → EReal) (a4 : (⟨1, ![9]⟩ : Shape).Idx → EReal)
    (b : Fin 128) (g : Fin 20000) (q : Fin 10) :
    outProbs a0 a1 a2 a3 a4 (ix3 b g q) = entry (a0 (ix2 b g)) a1 a2 a3 a4 q := rfl

end Cert.Cell

end
-- ==== Proof.RefResults.lean ====
/-
  The reference's two results, whole.

  Entry by entry the reference's first result is the entry's output probabilities and its second the entry's mask, so
  its run ends with the two result arrays as the functions of the arguments both programs are compared through.
-/
import proofs.«111675_j25323127177636_2_alg».proof.Proof.RefCell
import proofs.«111675_j25323127177636_2_alg».proof.Proof.Outputs

noncomputable section

namespace Cert.ReferenceIdeal.Results

open Cert.ReferenceIdeal Cert.ReferenceIdeal.Gen Cert.ReferenceIdeal.ReadP Idealize.ShloMosaic Idealize.ShloMosaic.TcCoe
open Idealize.ShloMosaic.ValueIdx Idealize.SL.Sem Cert.Cell

/-- The probabilities result is the entries' output probabilities. -/
theorem probs_eq (m : (ℓ : Loc nD τ sig) → Buf (Elt Ideal) ℓ) (c : Dev nD) :
    Cert.ReferenceIdeal.ValueP.res_main_v37 (F := Ideal) m c
      = outProbs (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  rw [val_main_v37_eq]
  refine funext fun (y : S128x20000x10.Idx) => ?_
  obtain ⟨b, g, q, rfl⟩ : ∃ (b : Fin 128) (g : Fin 20000) (q : Fin 10), y = ix3 b g q := ⟨y 0, y 1, y 2, eq_ix3 y⟩
  rw [Cert.ReferenceIdeal.AtEntry.probs_apply]
  rfl

/-- The mask result is the entries' masks. -/
theorem mask_eq (x0 : (⟨S128x20000, .f32⟩ : BufTy).Contents (Elt Ideal)) :
    uitofp (F := Ideal) .f32 (cmpf (F := Ideal) .une x0 (broadcastInDim S128x20000 ![] bcast_S_S128x20000 (constant (F := Ideal) S_ .f32 0x00000000#32)))
      = outMask x0 := by
  rw [val_main_v2_eq]
  refine funext fun (y : S128x20000.Idx) => ?_
  obtain ⟨b, g, rfl⟩ : ∃ (b : Fin 128) (g : Fin 20000), y = ix2 b g := ⟨y 0, y 1, eq_ix2 y⟩
  exact Cert.ReferenceIdeal.AtEntry.mask_apply x0 b g

/-- The reference's run: every weakly fair execution ends with the two results at those functions of the arguments, and
    the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37)
        = outProbs (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_v2) = outMask (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (probs_eq m c), (h c).2.1.trans (mask_eq _), (h c).2.2⟩)
    (Cert.ReferenceIdeal.ValueP.run (F := Ideal) m ρ)

end Cert.ReferenceIdeal.Results

end
-- ==== Proof.ChunkStores.lean ====
/-
  What the body leaves in its two output blocks at one grid point.

  The body's loop makes sixteen trips. Trip k loads lanes [128 k, 128 k + 128) of the point's [128, 2048] block of
  expression values, and stores a [128, 10, 128] tile of probabilities and a [128, 128] tile of mask values into the
  same lanes of the two output blocks. The sixteen tiles of an output are kept apart by the lane axis, so an entry of
  a block is read off the one tile whose lanes hold it.
-/
import proofs.«111675_j25323127177636_2_alg».proof.Proof.Gen.KernelIdeal.Frame
import Idealize.ShloMosaic.Lib.WritesUnit
import Idealize.ShloMosaic.Lib.ValueIdx
import Idealize.ShloMosaic.Lib.Pipeline.Value

set_option maxRecDepth 16384

noncomputable section

namespace Cert.KernelIdeal.Chunk

open Idealize.ShloMosaic Idealize.ShloMosaic.TcCoe Idealize.ShloMosaic.Tactic Idealize.SL.Sem
open Idealize.ShloMosaic.ValueIdx
open Cert.KernelIdeal Cert.KernelIdeal.Gen

variable {F : FTy → Type} [FloatOps F]

/-- The loop makes sixteen trips. -/
theorem trips_eq : k0_t1_loop.trips = 16 := by decide

/-- Lanes [128 k, 128 k + 128) of a [128, 2048] block. -/
def chunk (x0 : Vec F S128x2048 .f32) (k : Fin k0_t1_loop.trips) : Vec F S128x128 .f32 :=
  View.ld x0 (Rect.unit (s := S128x2048) (k0_off1 k) S128x128.size (k0_off1_inb k))

/-- Entry (b, g) of chunk k is entry (b, 128 k + g) of the block. -/
theorem chunk_apply (x0 : Vec F S128x2048 .f32) (k : Fin k0_t1_loop.trips) (b g : Fin 128) (hlt : 128 * k.val + g.val < 2048) :
    chunk x0 k (ix2 b g) = x0 (ix2 b ⟨128 * k.val + g.val, hlt⟩) := by
  show x0 ((Rect.unit (s := S128x2048) (k0_off1 k) S128x128.size (k0_off1_inb k)).emb (ix2 b g)) = _
  refine congrArg x0 (funext fun a => Fin.ext ?_)
  rw [Rect.emb_apply, Rect.off_unit, Rect.stride_unit]
  match a with
  | ⟨0, _⟩ =>
    have e : k0_off1 k 0 = 0 := congrFun (k0_off1_eq k) 0
    show k0_off1 k 0 + 1 * b.val = b.val
    omega
  | ⟨1, _⟩ =>
    have e : k0_off1 k 1 = 128 * k.val := congrFun (k0_off1_eq k) 1
    show k0_off1 k 1 + 1 * g.val = 128 * k.val + g.val
    omega

/-- The tile of probabilities trip k stores, from the point's five input blocks. -/
def probsTile (x0 : Vec F S128x2048 .f32) (x1 : Vec F S1x64 .f32) (x2 : Vec F S64 .f32) (x3 : Vec F S64x9 .f32) (x4 : Vec F S9 .f32)
    (k : Fin k0_t1_loop.trips) : FVec F S128x10x128 .f32 :=
  k0_pay3 (k0_pay6 (k0_pay1 x1) x2 (k0_pay2 x3) x4 (chunk x0 k)) (k0_pay8 (chunk x0 k)) (k0_pay9 (chunk x0 k))

/-- The tile of mask values trip k stores. -/
def maskTile (x0 : Vec F S128x2048 .f32) (k : Fin k0_t1_loop.trips) : FVec F S128x128 .f32 := k0_pay5 (chunk x0 k)

theorem zero2 : (![0, 0] : Fin 2 → ℕ) = fun _ => 0 := by funext a; fin_cases a <;> rfl
theorem zero1 : (![0] : Fin 1 → ℕ) = fun _ => 0 := by funext a; fin_cases a; rfl

/-- The pieces the body's run leaves in the probabilities block are the sixteen tiles, newest first. -/
theorem probs_stores (c : Dev nD) (i : grid0.Coords) (arg1 : Memref sig .tc .vmem S128x2048 .f32) (harg1 : arg1.IsWhole) (arg2 : Memref sig .tc .vmem S1x64 .f32) (harg2 : arg2.IsWhole) (arg3 : Memref sig .tc .vmem S64 .f32) (harg3 : arg3.IsWhole) (arg4 : Memref sig .tc .vmem S64x9 .f32) (harg4 : arg4.IsWhole) (arg5 : Memref sig .tc .vmem S9 .f32) (harg5 : arg5.IsWhole) (arg6 : Memref sig .tc .vmem S128x10x2048 .f32) (harg6 : arg6.IsWhole) (arg7 : Memref sig .tc .vmem S128x2048 .f32) (harg7 : arg7.IsWhole)
    (x0 : Vec F S128x2048 .f32) (x1 : Vec F S1x64 .f32) (x2 : Vec F S64 .f32) (x3 : Vec F S64x9 .f32) (x4 : Vec F S9 .f32) :
    (kernelRun0_A c i arg1 harg1 arg2 harg2 arg3 harg3 arg4 harg4 arg5 harg5 arg6 harg6 arg7 harg7 x0 x1 x2 x3 x4).1
      = View.tilePieces (Val := Elt F) (s := S128x10x2048) (e := .f32) S128x10x128.size (fun k : Fin k0_t1_loop.trips => k0_off2 k)
          (fun k => k0_off2_inb k) (fun k => probsTile x0 x1 x2 x3 x4 k) k0_t1_loop.trips (Nat.le_refl _) := by
  have e : (kernelRun0_A c i arg1 harg1 arg2 harg2 arg3 harg3 arg4 harg4 arg5 harg5 arg6 harg6 arg7 harg7 x0 x1 x2 x3 x4).1
      = View.tilePieces (Val := Elt F) (s := S128x10x2048) (e := .f32) S128x10x128.size (fun k : Fin k0_t1_loop.trips => k0_off2 k)
          (fun k => k0_off2_inb k)
          (fun k => k0_pay3
            (k0_pay6 (k0_pay1 (View.readAt (Elt F) arg2.view (Rect.unit ![0, 0] S1x64.size inb_S1x64_S1x64_0_0).toLoadRect (harg2.unread x1)))
              (View.readAt (Elt F) arg3.view (Rect.unit ![0] S64.size inb_S64_S64_0).toLoadRect (harg3.unread x2))
              (k0_pay2 (View.readAt (Elt F) arg4.view (Rect.unit ![0, 0] S64x9.size inb_S64x9_S64x9_0_0).toLoadRect (harg4.unread x3)))
              (View.readAt (Elt F) arg5.view (Rect.unit ![0] S9.size inb_S9_S9_0).toLoadRect (harg5.unread x4))
              (View.readAt (Elt F) arg1.view (Rect.unit (s := S128x2048) (k0_off1 k) S128x128.size (k0_off1_inb k)).toLoadRect (harg1.unread x0)))
            (k0_pay8 (View.readAt (Elt F) arg1.view (Rect.unit (s := S128x2048) (k0_off1 k) S128x128.size (k0_off1_inb k)).toLoadRect (harg1.unread x0)))
            (k0_pay9 (View.readAt (Elt F) arg1.view (Rect.unit (s := S128x2048) (k0_off1 k) S128x128.size (k0_off1_inb k)).toLoadRect (harg1.unread x0))))
          k0_t1_loop.trips (Nat.le_refl _) := by
    sl_kernel_rfl
  rw [e]
  simp only [View.readAt_eq_ld, Memref.IsWhole.read_unread, View.ld_unit_zero (S := S1x64) zero2, View.ld_unit_zero (S := S64) zero1,
    View.ld_unit_zero (S := S64x9) zero2, View.ld_unit_zero (S := S9) zero1]
  rfl

/-- The pieces the body's run leaves in the mask block are the sixteen tiles, newest first. -/
theorem mask_stores (c : Dev nD) (i : grid0.Coords) (arg1 : Memref sig .tc .vmem S128x2048 .f32) (harg1 : arg1.IsWhole) (arg2 : Memref sig .tc .vmem S1x64 .f32) (harg2 : arg2.IsWhole) (arg3 : Memref sig .tc .vmem S64 .f32) (harg3 : arg3.IsWhole) (arg4 : Memref sig .tc .vmem S64x9 .f32) (harg4 : arg4.IsWhole) (arg5 : Memref sig .tc .vmem S9 .f32) (harg5 : arg5.IsWhole) (arg6 : Memref sig .tc .vmem S128x10x2048 .f32) (harg6 : arg6.IsWhole) (arg7 : Memref sig .tc .vmem S128x2048 .f32) (harg7 : arg7.IsWhole)
    (x0 : Vec F S128x2048 .f32) (x1 : Vec F S1x64 .f32) (x2 : Vec F S64 .f32) (x3 : Vec F S64x9 .f32) (x4 : Vec F S9 .f32) :
    (kernelRun0_A c i arg1 harg1 arg2 harg2 arg3 harg3 arg4 harg4 arg5 harg5 arg6 harg6 arg7 harg7 x0 x1 x2 x3 x4).2.1
      = View.tilePieces (Val := Elt F) (s := S128x2048) (e := .f32) S128x128.size (fun k : Fin k0_t1_loop.trips => k0_off1 k)
          (fun k => k0_off1_inb k) (fun k => maskTile x0 k) k0_t1_loop.trips (Nat.le_refl _) := by
  have e : (kernelRun0_A c i arg1 harg1 arg2 harg2 arg3 harg3 arg4 harg4 arg5 harg5 arg6 harg6 arg7 harg7 x0 x1 x2 x3 x4).2.1
      = View.tilePieces (Val := Elt F) (s := S128x2048) (e := .f32) S128x128.size (fun k : Fin k0_t1_loop.trips => k0_off1 k)
          (fun k => k0_off1_inb k)
          (fun k => k0_pay5 (View.readAt (Elt F) arg1.view (Rect.unit (s := S128x2048) (k0_off1 k) S128x128.size (k0_off1_inb k)).toLoadRect (harg1.unread x0)))
          k0_t1_loop.trips (Nat.le_refl _) := by
    sl_kernel_rfl
  rw [e]
  simp only [View.readAt_eq_ld, Memref.IsWhole.read_unread]
  rfl

/-- Entry (b, q, 128 k + g) of the probabilities block the body leaves is entry (b, q, g) of tile k. -/
theorem probs_block_apply (c : Dev nD) (i : grid0.Coords) (arg1 : Memref sig .tc .vmem S128x2048 .f32) (harg1 : arg1.IsWhole) (arg2 : Memref sig .tc .vmem S1x64 .f32) (harg2 : arg2.IsWhole) (arg3 : Memref sig .tc .vmem S64 .f32) (harg3 : arg3.IsWhole) (arg4 : Memref sig .tc .vmem S64x9 .f32) (harg4 : arg4.IsWhole) (arg5 : Memref sig .tc .vmem S9 .f32) (harg5 : arg5.IsWhole) (arg6 : Memref sig .tc .vmem S128x10x2048 .f32) (harg6 : arg6.IsWhole) (arg7 : Memref sig .tc .vmem S128x2048 .f32) (harg7 : arg7.IsWhole)
    (x0 : Vec F S128x2048 .f32) (x1 : Vec F S1x64 .f32) (x2 : Vec F S64 .f32) (x3 : Vec F S64x9 .f32) (x4 : Vec F S9 .f32)
    (b : Fin 128) (q : Fin 10) (k : Fin k0_t1_loop.trips) (g : Fin 128) (hlt : 128 * k.val + g.val < 2048) :
    out0_A_5 c i arg1 harg1 arg2 harg2 arg3 harg3 arg4 harg4 arg5 harg5 arg6 harg6 arg7 harg7 x0 x1 x2 x3 x4 (ix3 b q ⟨128 * k.val + g.val, hlt⟩) = probsTile x0 x1 x2 x3 x4 k (ix3 b q g) := by
  unfold out0_A_5
  rw [probs_stores]
  refine View.read_tilePieces VO0_5 _ S128x10x128.size (fun k : Fin k0_t1_loop.trips => k0_off2 k) (fun k => k0_off2_inb k) _ _ (Nat.le_refl _)
    (ix3 b q ⟨128 * k.val + g.val, hlt⟩) k k.isLt (ix3 b q g) ?_ 2 ?_
  · intro a
    match a with
    | ⟨0, _⟩ =>
      have e : k0_off2 k 0 = 0 := congrFun (k0_off2_eq k) 0
      show b.val = k0_off2 k 0 + b.val
      omega
    | ⟨1, _⟩ =>
      have e : k0_off2 k 1 = 0 := congrFun (k0_off2_eq k) 1
      show q.val = k0_off2 k 1 + q.val
      omega
    | ⟨2, _⟩ =>
      have e : k0_off2 k 2 = 128 * k.val := congrFun (k0_off2_eq k) 2
      show 128 * k.val + g.val = k0_off2 k 2 + g.val
      omega
  · intro i' hne
    have hv : i'.val ≠ k.val := fun h => hne (Fin.ext h)
    have e : k0_off2 i' 2 = 128 * i'.val := congrFun (k0_off2_eq i') 2
    show 128 * k.val + g.val < k0_off2 i' 2 ∨ k0_off2 i' 2 + 128 ≤ 128 * k.val + g.val
    have := g.isLt
    omega

/-- Entry (b, 128 k + g) of the mask block the body leaves is entry (b, g) of tile k. -/
theorem mask_block_apply (c : Dev nD) (i : grid0.Coords) (arg1 : Memref sig .tc .vmem S128x2048 .f32) (harg1 : arg1.IsWhole) (arg2 : Memref sig .tc .vmem S1x64 .f32) (harg2 : arg2.IsWhole) (arg3 : Memref sig .tc .vmem S64 .f32) (harg3 : arg3.IsWhole) (arg4 : Memref sig .tc .vmem S64x9 .f32) (harg4 : arg4.IsWhole) (arg5 : Memref sig .tc .vmem S9 .f32) (harg5 : arg5.IsWhole) (arg6 : Memref sig .tc .vmem S128x10x2048 .f32) (harg6 : arg6.IsWhole) (arg7 : Memref sig .tc .vmem S128x2048 .f32) (harg7 : arg7.IsWhole)
    (x0 : Vec F S128x2048 .f32) (x1 : Vec F S1x64 .f32) (x2 : Vec F S64 .f32) (x3 : Vec F S64x9 .f32) (x4 : Vec F S9 .f32)
    (b : Fin 128) (k : Fin k0_t1_loop.trips) (g : Fin 128) (hlt : 128 * k.val + g.val < 2048) :
    out0_A_6 c i arg1 harg1 arg2 harg2 arg3 harg3 arg4 harg4 arg5 harg5 arg6 harg6 arg7 harg7 x0 x1 x2 x3 x4 (ix2 b ⟨128 * k.val + g.val, hlt⟩) = maskTile x0 k (ix2 b g) := by
  unfold out0_A_6
  rw [mask_stores]
  refine View.read_tilePieces VO0_6 _ S128x128.size (fun k : Fin k0_t1_loop.trips => k0_off1 k) (fun k => k0_off1_inb k) _ _ (Nat.le_refl _)
    (ix2 b ⟨128 * k.val + g.val, hlt⟩) k k.isLt (ix2 b g) ?_ 1 ?_
  · intro a
    match a with
    | ⟨0, _⟩ =>
      have e : k0_off1 k 0 = 0 := congrFun (k0_off1_eq k) 0
      show b.val = k0_off1 k 0 + b.val
      omega
    | ⟨1, _⟩ =>
      have e : k0_off1 k 1 = 128 * k.val := congrFun (k0_off1_eq k) 1
      show 128 * k.val + g.val = k0_off1 k 1 + g.val
      omega
  · intro i' hne
    have hv : i'.val ≠ k.val := fun h => hne (Fin.ext h)
    have e : k0_off1 i' 1 = 128 * i'.val := congrFun (k0_off1_eq i') 1
    show 128 * k.val + g.val < k0_off1 i' 1 ∨ k0_off1 i' 1 + 128 ≤ 128 * k.val + g.val
    have := g.isLt
    omega

end Cert.KernelIdeal.Chunk

end
-- ==== Proof.LibPlainDot.lean ====
/-
  A plain matrix product's contraction sum, re-indexed by the contracted coordinate.

  For a dot of an [n, K] operand with a [K, M] operand into [n, M] that contracts the left operand's axis 1 with the
  right operand's axis 0 and has no batch axes, the sum over the contraction index of left(row i, k) * right(k, column i)
  is the sum over k : Fin K of L (i 0, k) * R (k, i 1): what both a kernel's matrix unit and a host dot_general
  compute at an output index over the extended reals.
-/
import Idealize.ShloMosaic.PureOps.Ideal.Laws
import Idealize.ShloMosaic.Lib.ValueIdx

namespace Cert.LibPlainDot

open Idealize.ShloMosaic Idealize.ShloMosaic.ValueIdx

variable {n K M : Nat}

/-- The dimension numbers of a plain product: contract axis 1 with axis 0, keep axis 0 and axis 1, no batch axes. -/
structure IsPlain (d : DotDims ⟨2, ![n, K]⟩ ⟨2, ![K, M]⟩ ⟨2, ![n, M]⟩) : Prop where
  lc : d.lhsContracting = [1]
  rc : d.rhsContracting = [0]
  ln : d.lhsNonContracting = [0]
  rn : d.rhsNonContracting = [1]
  lb : d.lhsBatch = []
  rb : d.rhsBatch = []

/-- The contraction sum of a plain product at output index `i` is the sum over the contracted coordinate. -/
theorem sum_contr {α : Type} [AddCommMonoid α] (d : DotDims ⟨2, ![n, K]⟩ ⟨2, ![K, M]⟩ ⟨2, ![n, M]⟩) (hd : IsPlain d)
    (f : (⟨2, ![n, K]⟩ : Shape).Idx → (⟨2, ![K, M]⟩ : Shape).Idx → α) (i : (⟨2, ![n, M]⟩ : Shape).Idx) :
    ∑ q : d.contr.Idx, f (d.lhsIdx i q) (d.rhsIdx i q) = ∑ k : Fin K, f (ix2 (i 0) k) (ix2 k (i 1)) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![K, M]⟩ ⟨2, ![n, M]⟩ := ⟨[1], [0], [0], [1], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 k (i 1) := funext fun a => Fin.ext (by
    match a with
    | ⟨0, _⟩ => exact (d.rhsIdx_val_of_single rfl i _).trans hk
    | ⟨1, _⟩ =>
      show (d.rhsIdx i _ 1).val = (i 1).val
      unfold DotDims.rhsIdx
      rw [dif_neg (show ¬(1 : Fin (⟨2, ![K, M]⟩ : Shape).rank) ∈ d.rhsBatch from List.not_mem_nil),
        dif_pos (show (1 : Fin (⟨2, ![K, M]⟩ : Shape).rank) ∈ d.rhsNonContracting from List.mem_singleton.mpr rfl)]
      rfl)
  rw [el, er]
  try rfl

end Cert.LibPlainDot
-- ==== Proof.LibDotApply.lean ====
/-
  A plain matrix product read at an entry, over the extended reals.

  For an [n, K] operand and a [K, M] operand contracted over K with no batch axes, the kernel's matrix-unit product
  into a zero accumulator and the host's dot_general both read, at entry (p, c), the sum over k : Fin K of
  L (p, k) * R (k, c): there is no rounding and no order of accumulation left in either.
-/
import proofs.«111675_j25323127177636_2_alg».proof.Proof.LibPlainDot
import Idealize.ShloMosaic.PureOps.Ideal.Laws
import Idealize.ShloMosaic.Lib.ValueIdx

noncomputable section

namespace Cert.LibDotApply

open Idealize.ShloMosaic Idealize.ShloMosaic.ValueIdx Cert.LibPlainDot

variable {n K M : Nat} {φ₁ φ₂ : FTy}

/-- A kernel's matrix-unit product of plain dimension numbers into a zero accumulator, at entry (p, c). -/
theorem matmul_zero_apply (d : DotDims ⟨2, ![n, K]⟩ ⟨2, ![K, M]⟩ ⟨2, ![n, M]⟩) (hd : IsPlain d) (prec : Option ContractPrecision)
    (lhs : FVec Ideal ⟨2, ![n, K]⟩ φ₁) (rhs : FVec Ideal ⟨2, ![K, M]⟩ φ₂) (p : Fin n) (c : Fin M) :
    FloatOps.matmul d prec lhs rhs (constant ⟨2, ![n, M]⟩ .f32 0x00000000#32) (ix2 p c)
      = ∑ k : Fin K, lhs (ix2 p k) * rhs (ix2 k c) :=
  (Ideal.matmul_constant_zero_apply d prec lhs rhs (ix2 p c)).trans
    (sum_contr d hd (fun a b => lhs a * rhs b) (ix2 p c))

/-- The host's dot_general of plain dimension numbers, at entry (p, c). -/
theorem dotGeneral_apply (d : DotDims ⟨2, ![n, K]⟩ ⟨2, ![K, M]⟩ ⟨2, ![n, M]⟩) (hd : IsPlain d) (prec : Option ContractPrecision)
    (sched : HostSchedule) (lhs : FVec Ideal ⟨2, ![n, K]⟩ φ₁) (rhs : FVec Ideal ⟨2, ![K, M]⟩ φ₂) (p : Fin n) (c : Fin M) :
    FloatOps.dotGeneral d prec sched lhs rhs (ix2 p c) = ∑ k : Fin K, lhs (ix2 p k) * rhs (ix2 k c) :=
  (Ideal.dotGeneral_apply d prec sched lhs rhs (ix2 p c)).trans
    (sum_contr d hd (fun a b => lhs a * rhs b) (ix2 p c))

end Cert.LibDotApply

end
-- ==== Proof.TileValue.lean ====
/-
  One tile of the kernel's output, read at an entry.

  Trip k of the body's loop works on a [128, 128] chunk X of expression values. It lays the chunk out as
  [128, 128, 1], broadcasts it against the 64 first-layer weights, applies the rectifier, flattens (b, g) to the row
  128 b + g of a [16384, 64] matrix for the matrix unit, multiplies by the [64, 9] second-layer weights, and unflattens
  the [16384, 9] product back to [128, 128, 9]; then the softmax along the last axis, a transpose that moves the nine
  bins in front of the lanes, and the concatenation with the bin-0 row. None of these layout steps mixes entries: at
  (b, q, g) the tile holds the q-th output probability of the one expression value X (b, g).
-/
import proofs.«111675_j25323127177636_2_alg».proof.Proof.Gen.KernelIdeal.Skeleton
import proofs.«111675_j25323127177636_2_alg».proof.Proof.Cell
import proofs.«111675_j25323127177636_2_alg».proof.Proof.LibDotApply
import Idealize.ShloMosaic.PureOps.Ideal.Laws
import Idealize.ShloMosaic.Lib.Pipeline.Value
import Idealize.ShloMosaic.Lib.ValueIdx

noncomputable section

namespace Cert.KernelIdeal.Tile

open Idealize.ShloMosaic Idealize.ShloMosaic.ValueIdx Cert.KernelIdeal Cert.KernelIdeal.Gen Cert.Cell

/-! ## The layout steps, each read at an index -/

section Layout

variable {α : Type}

/-- The row of (b, g) when [128, 128, ·] is flattened to [16384, ·]. -/
def row (b g : Fin 128) : Fin 16384 := ⟨b.val * 128 + g.val, by have := b.isLt; have := g.isLt; omega⟩

/-- [128, 128] read as [128, 128, 1]. -/
theorem cast_col (X : S128x128.Idx → α) (h : S128x128.ShapeCasts S128x128x1) (b g : Fin 128) (z : Fin 1) :
    shapeCast S128x128x1 X h (ix3 b g z) = X (ix2 b g) :=
  shapeCast_apply X h _ (ix2 b g) (by
    rw [Shape.rowMajor_val_two, Shape.rowMajor_val_three]
    show b.val * 128 + g.val = (b.val * 128 + g.val) * 1 + z.val
    have := z.isLt; omega)

/-- [128, 128] read as [128, 1, 128]. -/
theorem cast_mid (X : S128x128.Idx → α) (h : S128x128.ShapeCasts S128x1x128) (b : Fin 128) (z : Fin 1) (g : Fin 128) :
    shapeCast S128x1x128 X h (ix3 b z g) = X (ix2 b g) :=
  shapeCast_apply X h _ (ix2 b g) (by
    rw [Shape.rowMajor_val_two, Shape.rowMajor_val_three]
    show b.val * 128 + g.val = (b.val * 1 + z.val) * 128 + g.val
    have := z.isLt; omega)

/-- [64] read as [1, 1, 64]. -/
theorem cast_vec64 (v : S64.Idx → α) (h : S64.ShapeCasts S1x1x64) (z1 z2 : Fin 1) (k : Fin 64) :
    shapeCast S1x1x64 v h (ix3 z1 z2 k) = v (ix1 k) :=
  shapeCast_apply v h _ (ix1 k) (by
    rw [Shape.rowMajor_val_one, Shape.rowMajor_val_three]
    show k.val = (z1.val * 1 + z2.val) * 64 + k.val
    have := z1.isLt; have := z2.isLt; omega)

/-- [9] read as [1, 1, 9]. -/
theorem cast_vec9 (v : S9.Idx → α) (h : S9.ShapeCasts S1x1x9) (z1 z2 : Fin 1) (j : Fin 9) :
    shapeCast S1x1x9 v h (ix3 z1 z2 j) = v (ix1 j) :=
  shapeCast_apply v h _ (ix1 j) (by
    rw [Shape.rowMajor_val_one, Shape.rowMajor_val_three]
    show j.val = (z1.val * 1 + z2.val) * 9 + j.val
    have := z1.isLt; have := z2.isLt; omega)

/-- [1, 64] read as [64]. -/
theorem cast_row (v : S1x64.Idx → α) (h : S1x64.ShapeCasts S64) (k : Fin 64) :
    shapeCast S64 v h (ix1 k) = v (ix2 0 k) :=
  shapeCast_apply v h _ (ix2 0 k) (by
    rw [Shape.rowMajor_val_two, Shape.rowMajor_val_one]
    show 0 * 64 + k.val = k.val
    omega)

/-- [128, 128, 64] flattened to [16384, 64]. -/
theorem flatten64 (Y : S128x128x64.Idx → α) (h : S128x128x64.ShapeCasts S16384x64) (b g : Fin 128) (k : Fin 64) :
    shapeCast S16384x64 Y h (ix2 (row b g) k) = Y (ix3 b g k) :=
  shapeCast_apply Y h _ (ix3 b g k) (by
    rw [Shape.rowMajor_val_three, Shape.rowMajor_val_two]
    rfl)

/-- [16384, 9] unflattened to [128, 128, 9]. -/
theorem unflatten9 (Z : S16384x9.Idx → α) (h : S16384x9.ShapeCasts S128x128x9) (b g : Fin 128) (j : Fin 9) :
    shapeCast S128x128x9 Z h (ix3 b g j) = Z (ix2 (row b g) j) :=
  shapeCast_apply Z h _ (ix2 (row b g) j) (by
    rw [Shape.rowMajor_val_two, Shape.rowMajor_val_three]
    rfl)

/-- [128, 128, 1] broadcast along the 64 hidden units. -/
theorem spread_col64 (Y : S128x128x1.Idx → α) (h : S128x128x1.Broadcasts S128x128x64) (b g : Fin 128) (k : Fin 64) :
    broadcastTo S128x128x64 Y h (ix3 b g k) = Y (ix3 b g (0 : Fin 1)) :=
  broadcastTo_apply Y h _ (ix3 b g (0 : Fin 1)) (fun a => match a with
    | ⟨0, _⟩ => by show b.val = if (128 : Nat) = 1 then 0 else b.val; rw [if_neg (by decide)]
    | ⟨1, _⟩ => by show g.val = if (128 : Nat) = 1 then 0 else g.val; rw [if_neg (by decide)]
    | ⟨2, _⟩ => by show 0 = if (1 : Nat) = 1 then 0 else k.val; rw [if_pos rfl])

/-- [128, 128, 1] broadcast along the nine bins. -/
theorem spread_col9 (Y : S128x128x1.Idx → α) (h : S128x128x1.Broadcasts S128x128x9) (b g : Fin 128) (j : Fin 9) :
    broadcastTo S128x128x9 Y h (ix3 b g j) = Y (ix3 b g (0 : Fin 1)) :=
  broadcastTo_apply Y h _ (ix3 b g (0 : Fin 1)) (fun a => match a with
    | ⟨0, _⟩ => by show b.val = if (128 : Nat) = 1 then 0 else b.val; rw [if_neg (by decide)]
    | ⟨1, _⟩ => by show g.val = if (128 : Nat) = 1 then 0 else g.val; rw [if_neg (by decide)]
    | ⟨2, _⟩ => by show 0 = if (1 : Nat) = 1 then 0 else j.val; rw [if_pos rfl])

/-- [1, 1, 64] broadcast over every (b, g). -/
theorem spread_vec64 (Y : S1x1x64.Idx → α) (h : S1x1x64.Broadcasts S128x128x64) (b g : Fin 128) (k : Fin 64) :
    broadcastTo S128x128x64 Y h (ix3 b g k) = Y (ix3 (0 : Fin 1) (0 : Fin 1) k) :=
  broadcastTo_apply Y h _ (ix3 (0 : Fin 1) (0 : Fin 1) k) (fun a => match a with
    | ⟨0, _⟩ => by show 0 = if (1 : Nat) = 1 then 0 else b.val; rw [if_pos rfl]
    | ⟨1, _⟩ => by show 0 = if (1 : Nat) = 1 then 0 else g.val; rw [if_pos rfl]
    | ⟨2, _⟩ => by show k.val = if (64 : Nat) = 1 then 0 else k.val; rw [if_neg (by decide)])

/-- [1, 1, 9] broadcast over every (b, g). -/
theorem spread_vec9 (Y : S1x1x9.Idx → α) (h : S1x1x9.Broadcasts S128x128x9) (b g : Fin 128) (j : Fin 9) :
    broadcastTo S128x128x9 Y h (ix3 b g j) = Y (ix3 (0 : Fin 1) (0 : Fin 1) j) :=
  broadcastTo_apply Y h _ (ix3 (0 : Fin 1) (0 : Fin 1) j) (fun a => match a with
    | ⟨0, _⟩ => by show 0 = if (1 : Nat) = 1 then 0 else b.val; rw [if_pos rfl]
    | ⟨1, _⟩ => by show 0 = if (1 : Nat) = 1 then 0 else g.val; rw [if_pos rfl]
    | ⟨2, _⟩ => by show j.val = if (9 : Nat) = 1 then 0 else j.val; rw [if_neg (by decide)])

/-- [128, 1, 128] broadcast along the nine bins, now the middle axis. -/
theorem spread_mid (Y : S128x1x128.Idx → α) (h : S128x1x128.Broadcasts S128x9x128) (b : Fin 128) (j : Fin 9) (g : Fin 128) :
    broadcastTo S128x9x128 Y h (ix3 b j g) = Y (ix3 b (0 : Fin 1) g) :=
  broadcastTo_apply Y h _ (ix3 b (0 : Fin 1) g) (fun a => match a with
    | ⟨0, _⟩ => by show b.val = if (128 : Nat) = 1 then 0 else b.val; rw [if_neg (by decide)]
    | ⟨1, _⟩ => by show 0 = if (1 : Nat) = 1 then 0 else j.val; rw [if_pos rfl]
    | ⟨2, _⟩ => by show g.val = if (128 : Nat) = 1 then 0 else g.val; rw [if_neg (by decide)])

/-- The transpose that moves the bins in front of the lanes. -/
theorem swap_lanes (Y : S128x128x9.Idx → α) (h : S128x128x9.Transposes [0, 2, 1] S128x9x128) (b : Fin 128) (j : Fin 9) (g : Fin 128) :
    transpose S128x9x128 [0, 2, 1] Y h (ix3 b j g) = Y (ix3 b g j) :=
  transpose_apply [0, 2, 1] Y h _ (ix3 b g j) (fun a => match a with
    | ⟨0, _⟩ => rfl
    | ⟨1, _⟩ => rfl
    | ⟨2, _⟩ => rfl)

/-- The reduced index (b, g) with bin j put back is (b, g, j). -/
theorem lift_bin (h : S128x128x9.Reduces [2] S128x128) (b g : Fin 128) (j : Fin 9) : h.lift (ix2 b g) j = ix3 b g j :=
  funext fun a => Fin.ext (by match a with | ⟨0, _⟩ => rfl | ⟨1, _⟩ => rfl | ⟨2, _⟩ => rfl)

end Layout

/-- A sum along the bins, at (b, g). -/
theorem bin_sum (src : FVec Ideal S128x128x9 .f32) (b g : Fin 128) :
    multiReduction .add [2] S128x128 src 0x00000000#32 reduces_S128x128x9_S128x128 (.inl rfl) rfl (ix2 b g)
      = ∑ j : Fin 9, src (ix3 b g j) :=
  (Ideal.multiReduction_add_single src 0x00000000#32 reduces_S128x128x9_S128x128 (.inl rfl) rfl (ix2 b g)).trans
    (Finset.sum_congr rfl fun j _ => congrArg src (lift_bin reduces_S128x128x9_S128x128 b g j))

/-- A maximum along the bins folded from -infinity, at (b, g). -/
theorem bin_max (src : FVec Ideal S128x128x9 .f32) (b g : Fin 128) :
    multiReduction .maximumf [2] S128x128 src 0xFF800000#32 reduces_S128x128x9_S128x128 (.inl rfl) rfl (ix2 b g)
      = (Finset.univ : Finset (Fin 9)).fold max (Ideal.ofBits .f32 0xFF800000#32) (fun j => src (ix3 b g j)) :=
  (Ideal.multiReduction_maximumf_single src 0xFF800000#32 reduces_S128x128x9_S128x128 (.inl rfl) rfl (ix2 b g)).trans
    (congrArg (fun f => (Finset.univ : Finset (Fin 9)).fold max (Ideal.ofBits .f32 0xFF800000#32) f)
      (funext fun j => congrArg src (lift_bin reduces_S128x128x9_S128x128 b g j)))

/-! ## The body's arithmetic in stages -/

section Stages

variable (v1 : FVec Ideal S64 .f32) (v2 : Vec Ideal S64 .f32) (v4 : FVec Ideal S64x9 .bf16) (v5 : Vec Ideal S9 .f32)
  (Y : FVec Ideal S128x128 .f32)

/-- x * w1 k + b1 k over the chunk. -/
def pre : FVec Ideal S128x128x64 .f32 :=
  addf (mulf (broadcastTo S128x128x64 (shapeCast S128x128x1 Y shapeCasts_S128x128_S128x128x1) broadcasts_S128x128x1_S128x128x64)
      (broadcastTo S128x128x64 (shapeCast S1x1x64 v1 shapeCasts_S64_S1x1x64) broadcasts_S1x1x64_S128x128x64))
    (broadcastTo S128x128x64 (shapeCast S1x1x64 v2 shapeCasts_S64_S1x1x64) broadcasts_S1x1x64_S128x128x64)

/-- The hidden layer over the chunk. -/
def hid : FVec Ideal S128x128x64 .f32 :=
  select (cmpf .oge (pre v1 v2 Y) (broadcast S128x128x64 (Scalar.ofBits .f32 0x00000000#32))) (pre v1 v2 Y)
    (mulf (broadcast S128x128x64 (Scalar.ofBits .f32 0x3C23D70A#32)) (pre v1 v2 Y))

/-- The logits over the chunk. -/
def logits : FVec Ideal S128x128x9 .f32 :=
  addf (shapeCast S128x128x9
      (matmul dot_S16384x64_S64x9_S16384x9_1_0_0_1_n_n none
        (truncf .bf16 (shapeCast S16384x64 (hid v1 v2 Y) shapeCasts_S128x128x64_S16384x64) bitsLt_bf16_f32) v4
        (constant S16384x9 .f32 0x00000000#32)) shapeCasts_S16384x9_S128x128x9)
    (broadcastTo S128x128x9 (shapeCast S1x1x9 v5 shapeCasts_S9_S1x1x9) broadcasts_S1x1x9_S128x128x9)

/-- The largest logit of each entry. -/
def tops : FVec Ideal S128x128 .f32 :=
  maximumf (broadcast S128x128 (Scalar.ofBits .f32 0xFF800000#32))
    (multiReduction .maximumf [2] S128x128 (logits v1 v2 v4 v5 Y) 0xFF800000#32 reduces_S128x128x9_S128x128 (.inl rfl) rfl)

/-- exp (logit - largest logit). -/
def shifted : FVec Ideal S128x128x9 .f32 :=
  exp (subf (logits v1 v2 v4 v5 Y)
    (broadcastTo S128x128x9 (shapeCast S128x128x1 (tops v1 v2 v4 v5 Y) shapeCasts_S128x128_S128x128x1) broadcasts_S128x128x1_S128x128x9))

/-- The softmax over the chunk. -/
def soft : FVec Ideal S128x128x9 .f32 :=
  divf (shifted v1 v2 v4 v5 Y)
    (broadcastTo S128x128x9
      (shapeCast S128x128x1
        (multiReduction .add [2] S128x128 (shifted v1 v2 v4 v5 Y) 0x00000000#32 reduces_S128x128x9_S128x128 (.inl rfl) rfl)
        shapeCasts_S128x128_S128x128x1) broadcasts_S128x128x1_S128x128x9)

/-- The body's softmax payload is the transpose of the last stage. -/
theorem pay6_eq (X : Vec Ideal S128x128 .f32) :
    k0_pay6 v1 v2 v4 v5 X
      = transpose S128x9x128 [0, 2, 1] (soft v1 v2 v4 v5 (k0_pay4 X)) transposes_S128x128x9_p0_2_1_S128x9x128 := rfl

theorem pre_apply (b g : Fin 128) (k : Fin 64) :
    pre v1 v2 Y (ix3 b g k) = Y (ix2 b g) * vecOf v1 k + vecOf v2 k := by
  show broadcastTo S128x128x64 (shapeCast S128x128x1 Y shapeCasts_S128x128_S128x128x1) broadcasts_S128x128x1_S128x128x64 (ix3 b g k)
      * broadcastTo S128x128x64 (shapeCast S1x1x64 v1 shapeCasts_S64_S1x1x64) broadcasts_S1x1x64_S128x128x64 (ix3 b g k)
      + broadcastTo S128x128x64 (shapeCast S1x1x64 v2 shapeCasts_S64_S1x1x64) broadcasts_S1x1x64_S128x128x64 (ix3 b g k) = _
  rw [spread_col64, cast_col, spread_vec64, cast_vec64, spread_vec64, cast_vec64]
  rfl

theorem hid_apply (b g : Fin 128) (k : Fin 64) :
    hid v1 v2 Y (ix3 b g k) = hidden (Y (ix2 b g)) (vecOf v1) (vecOf v2) k := by
  show Scalar.select (Ideal.cmp .oge (pre v1 v2 Y (ix3 b g k)) (Ideal.ofBits .f32 0x00000000#32)) (pre v1 v2 Y (ix3 b g k))
      (Ideal.ofBits .f32 0x3C23D70A#32 * pre v1 v2 Y (ix3 b g k)) = _
  rw [pre_apply]
  rfl

theorem logits_apply (b g : Fin 128) (j : Fin 9) :
    logits v1 v2 v4 v5 Y (ix3 b g j) = logit (Y (ix2 b g)) (vecOf v1) (vecOf v2) (matOf v4) (vecOf v5) j := by
  show shapeCast S128x128x9
        (matmul dot_S16384x64_S64x9_S16384x9_1_0_0_1_n_n none
          (truncf .bf16 (shapeCast S16384x64 (hid v1 v2 Y) shapeCasts_S128x128x64_S16384x64) bitsLt_bf16_f32) v4
          (constant S16384x9 .f32 0x00000000#32)) shapeCasts_S16384x9_S128x128x9 (ix3 b g j)
      + broadcastTo S128x128x9 (shapeCast S1x1x9 v5 shapeCasts_S9_S1x1x9) broadcasts_S1x1x9_S128x128x9 (ix3 b g j) = _
  rw [unflatten9, spread_vec9, cast_vec9]
  refine (congrArg (· + v5 (ix1 j)) (Cert.LibDotApply.matmul_zero_apply dot_S16384x64_S64x9_S16384x9_1_0_0_1_n_n
    ⟨rfl, rfl, rfl, rfl, rfl, rfl⟩ none _ v4 (row b g) j)).trans ?_
  unfold logit
  refine congrArg (· + vecOf v5 j) (Finset.sum_congr rfl fun k _ => ?_)
  show shapeCast S16384x64 (hid v1 v2 Y) shapeCasts_S128x128x64_S16384x64 (ix2 (row b g) k) * v4 (ix2 k j) = _
  rw [flatten64, hid_apply]
  rfl

theorem tops_apply (b g : Fin 128) :
    tops v1 v2 v4 v5 Y (ix2 b g) = top (logit (Y (ix2 b g)) (vecOf v1) (vecOf v2) (matOf v4) (vecOf v5)) := by
  show max (Ideal.ofBits .f32 0xFF800000#32)
      (multiReduction .maximumf [2] S128x128 (logits v1 v2 v4 v5 Y) 0xFF800000#32 reduces_S128x128x9_S128x128 (.inl rfl) rfl (ix2 b g)) = _
  rw [bin_max]
  have hf : (fun j => logits v1 v2 v4 v5 Y (ix3 b g j)) = logit (Y (ix2 b g)) (vecOf v1) (vecOf v2) (matOf v4) (vecOf v5) :=
    funext fun j => logits_apply v1 v2 v4 v5 Y b g j
  rw [hf]
  rfl

theorem shifted_apply (b g : Fin 128) (j : Fin 9) :
    shifted v1 v2 v4 v5 Y (ix3 b g j)
      = Ideal.exp (logit (Y (ix2 b g)) (vecOf v1) (vecOf v2) (matOf v4) (vecOf v5) j
          - top (logit (Y (ix2 b g)) (vecOf v1) (vecOf v2) (matOf v4) (vecOf v5))) := by
  show Ideal.exp (logits v1 v2 v4 v5 Y (ix3 b g j)
      - broadcastTo S128x128x9 (shapeCast S128x128x1 (tops v1 v2 v4 v5 Y) shapeCasts_S128x128_S128x128x1) broadcasts_S128x128x1_S128x128x9 (ix3 b g j)) = _
  rw [spread_col9, cast_col, logits_apply, tops_apply]

theorem soft_apply (b g : Fin 128) (j : Fin 9) :
    soft v1 v2 v4 v5 Y (ix3 b g j) = softmax (logit (Y (ix2 b g)) (vecOf v1) (vecOf v2) (matOf v4) (vecOf v5)) j := by
  show Ideal.div (shifted v1 v2 v4 v5 Y (ix3 b g j))
      (broadcastTo S128x128x9
        (shapeCast S128x128x1
          (multiReduction .add [2] S128x128 (shifted v1 v2 v4 v5 Y) 0x00000000#32 reduces_S128x128x9_S128x128 (.inl rfl) rfl)
          shapeCasts_S128x128_S128x128x1) broadcasts_S128x128x1_S128x128x9 (ix3 b g j)) = _
  rw [spread_col9, cast_col, bin_sum, shifted_apply]
  simp only [shifted_apply]
  rfl

end Stages

/-! ## The tile at an entry -/

/-- The chunk's identity cast changes nothing. -/
theorem pay4_eq (X : Vec Ideal S128x128 .f32) : k0_pay4 X = X := shapeCast_self X _

/-- The mask payload at (b, g). -/
theorem mask_tile_apply (X : Vec Ideal S128x128 .f32) (b g : Fin 128) : k0_pay5 X (ix2 b g) = mask (X (ix2 b g)) := by
  show ((((Ideal.cmp .one (k0_pay4 X (ix2 b g)) (Ideal.ofBits .f32 0x00000000#32)).setWidth 32).toInt : ℝ) : EReal) = _
  rw [pay4_eq, mask_widened]

/-- The tile of probabilities at (b, q, g): the q-th output probability of the entry X (b, g). -/
theorem tile_apply (x1 : Vec Ideal S1x64 .f32) (x2 : Vec Ideal S64 .f32) (x3 : Vec Ideal S64x9 .f32) (x4 : Vec Ideal S9 .f32)
    (X : Vec Ideal S128x128 .f32) (b : Fin 128) (q : Fin 10) (g : Fin 128) :
    k0_pay3 (k0_pay6 (k0_pay1 x1) x2 (k0_pay2 x3) x4 X) (k0_pay8 X) (k0_pay9 X) (ix3 b q g) = entry (X (ix2 b g)) x1 x2 x3 x4 q := by
  have hw1 : vecOf (k0_pay1 x1) = rowOf x1 := funext fun k => cast_row x1 shapeCasts_S1x64_S64 k
  have hm : ∀ z : Fin 1, k0_pay7 X (ix3 b z g) = mask (X (ix2 b g)) := fun z => by
    show shapeCast S128x1x128 (k0_pay5 X) shapeCasts_S128x128_S128x1x128 (ix3 b z g) = _
    rw [cast_mid, mask_tile_apply]
  unfold k0_pay3 entry probs
  by_cases hq : q.val = 0
  · rw [dif_pos hq]
    rw [concatenate_pair_apply_left (t := S128x10x128) (s₁ := S128x1x128) (s₂ := S128x9x128) 1 _ _ _ (ix3 b q g) rfl (ix3 b (0 : Fin 1) g) (fun a => by
      match a with
      | ⟨0, _⟩ => rfl
      | ⟨1, _⟩ => exact hq.symm
      | ⟨2, _⟩ => rfl)]
    show Ideal.ofBits .f32 0x3F800000#32 - k0_pay7 X (ix3 b (0 : Fin 1) g) = _
    rw [hm]
  · rw [dif_neg hq]
    rw [concatenate_pair_apply_right (t := S128x10x128) (s₁ := S128x1x128) (s₂ := S128x9x128) 1 _ _ _ (ix3 b q g) rfl rfl (ix3 b (⟨q.val - 1, by omega⟩ : Fin 9) g) (fun a ha => by
      match a with
      | ⟨0, _⟩ => rfl
      | ⟨1, _⟩ => exact absurd rfl ha
      | ⟨2, _⟩ => rfl) (by show q.val - 1 + 1 = q.val; omega)]
    show k0_pay6 (k0_pay1 x1) x2 (k0_pay2 x3) x4 X (ix3 b (⟨q.val - 1, by omega⟩ : Fin 9) g)
        * broadcastTo S128x9x128 (k0_pay7 X) broadcasts_S128x1x128_S128x9x128 (ix3 b (⟨q.val - 1, by omega⟩ : Fin 9) g) = _
    rw [spread_mid, hm, pay6_eq, swap_lanes, soft_apply, pay4_eq, hw1]
    rfl

end Cert.KernelIdeal.Tile

end
-- ==== Proof.BlocksToArrays.lean ====
/-
  From the grid points' blocks to the two output arrays.

  Grid point t works on lanes [2048 t, 2048 t + 2048) of the padded [128, 20480] expression array and writes the same
  lanes of the [128, 10, 20480] probabilities array and of the [128, 20480] mask array; the four weight arrays are
  staged whole at every point. What a point writes back is therefore the block at t of ONE function of the arrays the
  region finds — entry by entry the network of the padded expression value — and the ten blocks tile each output
  array, so after the region each output array is that function.
-/
import proofs.«111675_j25323127177636_2_alg».proof.Proof.Gen.KernelIdeal.Frame
import proofs.«111675_j25323127177636_2_alg».proof.Proof.ChunkStores
import proofs.«111675_j25323127177636_2_alg».proof.Proof.TileValue
import proofs.«111675_j25323127177636_2_alg».proof.Proof.Cell
import Idealize.ShloMosaic.Lib.Pipeline.Value
import Idealize.ShloMosaic.Lib.ValueIdx

set_option maxRecDepth 16384

noncomputable section

namespace Cert.KernelIdeal.Arrays

open Idealize.ShloMosaic Idealize.ShloMosaic.TcCoe Idealize.SL.Sem Idealize.ShloMosaic.ValueIdx
open Cert.KernelIdeal Cert.KernelIdeal.Gen Cert.KernelIdeal.Chunk Cert.KernelIdeal.Tile Cert.Cell

/-- The probabilities array as a function of the padded expression array and the weights. -/
def probsArr (a0 : S128x20480.Idx → EReal) (a1 : S1x64.Idx → EReal) (a2 : S64.Idx → EReal) (a3 : S64x9.Idx → EReal)
    (a4 : S9.Idx → EReal) : S128x10x20480.Idx → EReal := fun y =>
  entry (a0 (ix2 (⟨(y 0).val, (y 0).isLt⟩ : Fin 128) (⟨(y 2).val, (y 2).isLt⟩ : Fin 20480))) a1 a2 a3 a4 (⟨(y 1).val, (y 1).isLt⟩ : Fin 10)

/-- The mask array as a function of the padded expression array. -/
def maskArr (a0 : S128x20480.Idx → EReal) : S128x20480.Idx → EReal := fun y => mask (a0 y)

variable (m : (ℓ : Loc nD τ sig) → Buf (Elt Ideal) ℓ)

/-- The printed index maps, decided over the ten grid points: the streamed windows move along the lane axis with the
    point, the weight windows stay at block 0. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 3) = 0 ∧ win0_5.index t (1 : Fin 3) = 0 ∧ win0_5.index t (2 : Fin 3) = t.val
    ∧ win0_6.index t (0 : Fin 2) = 0 ∧ win0_6.index t (1 : Fin 2) = t.val :=
  (by decide +kernel : ∀ t : Fin grid0.N, _)

/-- A weight window's block is the whole array. -/
theorem iblk1_eq (c : Dev nD) (t : Fin cfg0.N) : iblk m c 1 t = V m c main_arg1 := by
  funext y
  show V m c main_arg1 (((cfg0.win 1).blk t).view.emb y) = V m c main_arg1 y
  refine congrArg _ (funext fun a => Fin.ext ?_)
  obtain ⟨-, -, e0, e1, -⟩ := idx_facts t
  match a with
  | ⟨0, _⟩ => show win0_1.index t (0 : Fin 2) * 1 + 1 * (y 0).val = (y 0).val; omega
  | ⟨1, _⟩ => show win0_1.index t (1 : Fin 2) * 64 + 1 * (y 1).val = (y 1).val; omega

theorem iblk2_eq (c : Dev nD) (t : Fin cfg0.N) : iblk m c 2 t = V m c main_arg2 := by
  funext y
  show V m c main_arg2 (((cfg0.win 2).blk t).view.emb y) = V m c main_arg2 y
  refine congrArg _ (funext fun a => Fin.ext ?_)
  obtain ⟨-, -, -, -, e0, -⟩ := idx_facts t
  match a with
  | ⟨0, _⟩ => show win0_2.index t (0 : Fin 1) * 64 + 1 * (y 0).val = (y 0).val; omega

theorem iblk3_eq (c : Dev nD) (t : Fin cfg0.N) : iblk m c 3 t = V m c main_arg3 := by
  funext y
  show V m c main_arg3 (((cfg0.win 3).blk t).view.emb y) = V m c main_arg3 y
  refine congrArg _ (funext fun a => Fin.ext ?_)
  obtain ⟨-, -, -, -, -, e0, e1, -⟩ := idx_facts t
  match a with
  | ⟨0, _⟩ => show win0_3.index t (0 : Fin 2) * 64 + 1 * (y 0).val = (y 0).val; omega
  | ⟨1, _⟩ => show win0_3.index t (1 : Fin 2) * 9 + 1 * (y 1).val = (y 1).val; omega

theorem iblk4_eq (c : Dev nD) (t : Fin cfg0.N) : iblk m c 4 t = V m c main_arg4 := by
  funext y
  show V m c main_arg4 (((cfg0.win 4).blk t).view.emb y) = V m c main_arg4 y
  refine congrArg _ (funext fun a => Fin.ext ?_)
  obtain ⟨-, -, -, -, -, -, -, e0, -⟩ := idx_facts t
  match a with
  | ⟨0, _⟩ => show win0_4.index t (0 : Fin 1) * 9 + 1 * (y 0).val = (y 0).val; omega

/-- The expression block of point t at (b, g') is the padded array at (b, 2048 t + g'). -/
theorem iblk0_apply (c : Dev nD) (t : Fin cfg0.N) (b : Fin 128) (g' : Fin 2048) (hlt : t.val * 2048 + g'.val < 20480) :
    iblk m c 0 t (ix2 b g') = V m c main_v0 (ix2 b ⟨t.val * 2048 + g'.val, hlt⟩) := by
  show V m c main_v0 (((cfg0.win 0).blk t).view.emb (ix2 b g')) = _
  refine congrArg _ (funext fun a => Fin.ext ?_)
  obtain ⟨e0, e1, -⟩ := idx_facts t
  match a with
  | ⟨0, _⟩ => show win0_0.index t (0 : Fin 2) * 128 + 1 * b.val = b.val; omega
  | ⟨1, _⟩ => show win0_0.index t (1 : Fin 2) * 2048 + 1 * g'.val = t.val * 2048 + g'.val; omega

/-- A lane of a 2048-lane block is lane g of chunk k, with 128 k + g the lane. -/
theorem lane_split (g' : Fin 2048) : ∃ (k : Fin k0_t1_loop.trips) (g : Fin 128) (h : 128 * k.val + g.val < 2048), g' = ⟨128 * k.val + g.val, h⟩ := by
  have hg := g'.isLt
  refine ⟨⟨g'.val / 128, by rw [trips_eq]; omega⟩, ⟨g'.val % 128, by omega⟩, by show 128 * (g'.val / 128) + g'.val % 128 < 2048; omega, Fin.ext ?_⟩
  show g'.val = 128 * (g'.val / 128) + g'.val % 128
  omega

/-- WHAT POINT t WRITES BACK to the probabilities array is the block at t of the array function. -/
theorem flushed5_eq (c : Dev nD) (t : Fin cfg0.N) :
    (dats m 0 c).flushed 5 t = ((cfg0.win 5).blk t).view.read (Elt Ideal)
      (probsArr (V m c main_v0) (V m c main_arg1) (V m c main_arg2) (V m c main_arg3) (V m c main_arg4)) := by
  show (cfg0.win 5).cut (grid0.coords t) ((dats m 0 c).after 5 t) = _
  rw [after0_5]
  unfold outsAt0
  dsimp only
  refine funext fun (j : S128x10x2048.Idx) => ?_
  obtain ⟨b, q, g', rfl⟩ : ∃ (b : Fin 128) (q : Fin 10) (g' : Fin 2048), j = ix3 b q g' := ⟨j 0, j 1, j 2, eq_ix3 j⟩
  obtain ⟨k, g, h, rfl⟩ := lane_split g'
  have ht : t.val < 10 := lt_of_lt_of_eq t.isLt (show cfg0.N = 10 from N_0)
  have hlt : t.val * 2048 + (128 * k.val + g.val) < 20480 := by omega
  show out0_A_5 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (iblk m c 0 t) (iblk m c 1 t) (iblk m c 2 t) (iblk m c 3 t) (iblk m c 4 t)
      (ix3 b q ⟨128 * k.val + g.val, h⟩)
    = probsArr (V m c main_v0) (V m c main_arg1) (V m c main_arg2) (V m c main_arg3) (V m c main_arg4)
      (((cfg0.win 5).blk t).view.emb (ix3 b q ⟨128 * k.val + g.val, h⟩))
  rw [probs_block_apply]
  unfold probsTile
  rw [tile_apply, chunk_apply _ k b g h, iblk0_apply m c t b ⟨128 * k.val + g.val, h⟩ hlt, iblk1_eq, iblk2_eq, iblk3_eq, iblk4_eq]
  unfold probsArr
  obtain ⟨-, -, -, -, -, -, -, -, e0, e1, e2, -⟩ := idx_facts t
  have hb : (⟨((((cfg0.win 5).blk t).view.emb (ix3 b q ⟨128 * k.val + g.val, h⟩)) 0).val, ((((cfg0.win 5).blk t).view.emb (ix3 b q ⟨128 * k.val + g.val, h⟩)) 0).isLt⟩ : Fin 128) = b :=
    Fin.ext (by show win0_5.index t (0 : Fin 3) * 128 + 1 * b.val = b.val; omega)
  have hq : (⟨((((cfg0.win 5).blk t).view.emb (ix3 b q ⟨128 * k.val + g.val, h⟩)) 1).val, ((((cfg0.win 5).blk t).view.emb (ix3 b q ⟨128 * k.val + g.val, h⟩)) 1).isLt⟩ : Fin 10) = q :=
    Fin.ext (by show win0_5.index t (1 : Fin 3) * 10 + 1 * q.val = q.val; omega)
  have hg : (⟨((((cfg0.win 5).blk t).view.emb (ix3 b q ⟨128 * k.val + g.val, h⟩)) 2).val, ((((cfg0.win 5).blk t).view.emb (ix3 b q ⟨128 * k.val + g.val, h⟩)) 2).isLt⟩ : Fin 20480)
      = ⟨t.val * 2048 + (128 * k.val + g.val), hlt⟩ :=
    Fin.ext (by show win0_5.index t (2 : Fin 3) * 2048 + 1 * (128 * k.val + g.val) = t.val * 2048 + (128 * k.val + g.val); omega)
  rw [hb, hq, hg]

/-- WHAT POINT t WRITES BACK to the mask array is the block at t of the array function. -/
theorem flushed6_eq (c : Dev nD) (t : Fin cfg0.N) :
    (dats m 0 c).flushed 6 t = ((cfg0.win 6).blk t).view.read (Elt Ideal) (maskArr (V m c main_v0)) := by
  show (cfg0.win 6).cut (grid0.coords t) ((dats m 0 c).after 6 t) = _
  rw [after0_6]
  unfold outsAt0
  dsimp only
  refine funext fun (j : S128x2048.Idx) => ?_
  obtain ⟨b, g', rfl⟩ : ∃ (b : Fin 128) (g' : Fin 2048), j = ix2 b g' := ⟨j 0, j 1, eq_ix2 j⟩
  obtain ⟨k, g, h, rfl⟩ := lane_split g'
  have ht : t.val < 10 := lt_of_lt_of_eq t.isLt (show cfg0.N = 10 from N_0)
  have hlt : t.val * 2048 + (128 * k.val + g.val) < 20480 := by omega
  show out0_A_6 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (iblk m c 0 t) (iblk m c 1 t) (iblk m c 2 t) (iblk m c 3 t) (iblk m c 4 t)
      (ix2 b ⟨128 * k.val + g.val, h⟩)
    = maskArr (V m c main_v0) (((cfg0.win 6).blk t).view.emb (ix2 b ⟨128 * k.val + g.val, h⟩))
  rw [mask_block_apply]
  unfold maskTile
  rw [mask_tile_apply, chunk_apply _ k b g h, iblk0_apply m c t b ⟨128 * k.val + g.val, h⟩ hlt]
  unfold maskArr
  obtain ⟨-, -, -, -, -, -, -, -, -, -, -, e0, e1⟩ := idx_facts t
  refine congrArg (fun i => mask (V m c main_v0 i)) (funext fun a => Fin.ext ?_)
  match a with
  | ⟨0, _⟩ => show b.val = win0_6.index t (0 : Fin 2) * 128 + 1 * b.val; omega
  | ⟨1, _⟩ => show t.val * 2048 + (128 * k.val + g.val) = win0_6.index t (1 : Fin 2) * 2048 + 1 * (128 * k.val + g.val); omega

/-- An index of the probabilities array is in point t's block iff each coordinate is in the block's range. -/
theorem mem_blk5 (t : Fin cfg0.N) (i : S128x10x20480.Idx) :
    i ∈ ((cfg0.win 5).blk t).view.set ↔ ∀ a : Fin 3, win0_5.index t a * S128x10x2048.size a ≤ (i a).val ∧ (i a).val < win0_5.index t a * S128x10x2048.size a + S128x10x2048.size a := by
  show i ∈ ((View.whole main_v1_0).slice (win0_5.rect t)).set ↔ _
  rw [View.set_slice_whole, Rect.mem_set_unit]
  exact Iff.rfl

theorem mem_blk6 (t : Fin cfg0.N) (i : S128x20480.Idx) :
    i ∈ ((cfg0.win 6).blk t).view.set ↔ ∀ a : Fin 2, win0_6.index t a * S128x2048.size a ≤ (i a).val ∧ (i a).val < win0_6.index t a * S128x2048.size a + S128x2048.size a := by
  show i ∈ ((View.whole main_v1_1).slice (win0_6.rect t)).set ↔ _
  rw [View.set_slice_whole, Rect.mem_set_unit]
  exact Iff.rfl

/-- The ten blocks cover the probabilities array: lane G lies in the block of point G / 2048. -/
theorem cover5 (i : S128x10x20480.Idx) : ∃ t : Fin cfg0.N, (cfg0.win 5).flush t = true ∧ i ∈ ((cfg0.win 5).blk t).view.set := by
  have h0 : (i 0).val < 128 := (i 0).isLt
  have h1 : (i 1).val < 10 := (i 1).isLt
  have h2 : (i 2).val < 20480 := (i 2).isLt
  let t : Fin cfg0.N := ⟨(i 2).val / 2048, by rw [show cfg0.N = 10 from N_0]; omega⟩
  refine ⟨t, flush0_5 t, ?_⟩
  rw [mem_blk5]
  obtain ⟨-, -, -, -, -, -, -, -, e0, e1, e2, -⟩ := idx_facts t
  have et : t.val = (i 2).val / 2048 := rfl
  intro a
  match a with
  | ⟨0, _⟩ => show win0_5.index t (0 : Fin 3) * 128 ≤ (i 0).val ∧ (i 0).val < win0_5.index t (0 : Fin 3) * 128 + 128; omega
  | ⟨1, _⟩ => show win0_5.index t (1 : Fin 3) * 10 ≤ (i 1).val ∧ (i 1).val < win0_5.index t (1 : Fin 3) * 10 + 10; omega
  | ⟨2, _⟩ => show win0_5.index t (2 : Fin 3) * 2048 ≤ (i 2).val ∧ (i 2).val < win0_5.index t (2 : Fin 3) * 2048 + 2048; omega

/-- The ten blocks cover the mask array. -/
theorem cover6 (i : S128x20480.Idx) : ∃ t : Fin cfg0.N, (cfg0.win 6).flush t = true ∧ i ∈ ((cfg0.win 6).blk t).view.set := by
  have h0 : (i 0).val < 128 := (i 0).isLt
  have h1 : (i 1).val < 20480 := (i 1).isLt
  let t : Fin cfg0.N := ⟨(i 1).val / 2048, by rw [show cfg0.N = 10 from N_0]; omega⟩
  refine ⟨t, flush0_6 t, ?_⟩
  rw [mem_blk6]
  obtain ⟨-, -, -, -, -, -, -, -, -, -, -, e0, e1⟩ := idx_facts t
  have et : t.val = (i 1).val / 2048 := rfl
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 2048 ≤ (i 1).val ∧ (i 1).val < win0_6.index t (1 : Fin 2) * 2048 + 2048; omega

/-- THE PROBABILITIES ARRAY after the region. -/
theorem final5 (c : Dev nD) :
    (dats m 0 c).arrAt 5 cfg0.N = probsArr (V m c main_v0) (V m c main_arg1) (V m c main_arg2) (V m c main_arg3) (V m c main_arg4) :=
  (dats m 0 c).arrAt_eq_of_cover 5 _ (fun t _ => flushed5_eq m c t) cover5

/-- THE MASK ARRAY after the region. -/
theorem final6 (c : Dev nD) : (dats m 0 c).arrAt 6 cfg0.N = maskArr (V m c main_v0) :=
  (dats m 0 c).arrAt_eq_of_cover 6 _ (fun t _ => flushed6_eq m c t) cover6

end Cert.KernelIdeal.Arrays

end
-- ==== Proof.KernelResults.lean ====
/-
  The kernel's two results, whole.

  Around the region the host pads the expression array with 480 zero lanes, so that ten blocks of 2048 lanes tile it, and
  afterwards cuts the padding off again: the probabilities array [128, 10, 20480] is sliced to its first 20000 lanes and
  transposed to [128, 20000, 10], the mask array [128, 20480] is sliced to [128, 20000]. Inside the first 20000 lanes the
  padded array is the expression array, so the two results are the entries' output probabilities and masks.
-/
import proofs.«111675_j25323127177636_2_alg».proof.Proof.BlocksToArrays
import proofs.«111675_j25323127177636_2_alg».proof.Proof.Outputs
import Idealize.ShloMosaic.Lib.KernelVsHost
import Idealize.ShloMosaic.Lib.StableHlo.Run
import Idealize.ShloMosaic.Lib.Pipeline.Value

set_option maxRecDepth 16384

noncomputable section

namespace Cert.KernelIdeal.Results

open Idealize.ShloMosaic Idealize.ShloMosaic.TcCoe Idealize.SL.Sem Idealize.ShloMosaic.ValueIdx Idealize.ShloMosaic.StableHlo
open Cert.KernelIdeal Cert.KernelIdeal.Gen Cert.KernelIdeal.Arrays Cert.Cell

variable (m : (ℓ : Loc nD τ sig) → Buf (Elt Ideal) ℓ) (ρ : Dev nD → PrngReg)

/-- The array the region finds in its first window is the expression array padded with the converted constant. -/
theorem padded_eq (c : Dev nD) :
    (V m c main_v0 : S128x20480.Idx → EReal)
      = pad S128x20480 ![0, 0] ![0, 480] ![0, 0] (m ((c : Thread nD τ).loc main_arg0))
          (sitofp (F := Ideal) .f32 (constantI S_ 32 0#32)) pads_S128x20000_S128x20480_000_04800 h_S_ := by
  dsimp only [Gen.V, Gen.V0]
  simp only [Gen.hostOps0, Gen.hostOps0_1, List.flatten_cons, List.flatten_nil, List.append_nil, List.cons_append, List.nil_append]
  after_results
  rfl

/-- Inside the first 20000 lanes the padded array is the expression array. -/
theorem padded_apply (c : Dev nD) (b : Fin 128) (g : Fin 20000) (hlt : g.val < 20480) :
    V m c main_v0 (ix2 b ⟨g.val, hlt⟩) = m ((c : Thread nD τ).loc main_arg0) (ix2 b g) := by
  have e := congrFun (padded_eq m c) (ix2 b ⟨g.val, hlt⟩)
  refine e.trans ?_
  exact pad_apply_of_inside ![0, 0] ![0, 480] ![0, 0] _ _ pads_S128x20000_S128x20480_000_04800 h_S_ (ix2 b ⟨g.val, hlt⟩) (ix2 b g)
    (fun a => by
      match a with
      | ⟨0, _⟩ => show b.val = 0 + b.val * (0 + 1); omega
      | ⟨1, _⟩ => show g.val = 0 + g.val * (0 + 1); omega)

/-- The probabilities result after the host's slice and transpose, from the array the region leaves. -/
theorem tail_probs (c : Dev nD) :
    Pipeline.afterTail₀ cfgs (dats m) 0 (V0 m) [hostOps1] c main_v3
      = transpose S128x20000x10 [0, 2, 1]
          (extractStridedSlice S128x10x20000 ![0, 0, 0] ((dats m 0 c).arrAt 5 cfg0.N) slices_S128x10x20480_S128x10x20000_0_0_0)
          transposes_S128x10x20000_S128x20000x10_0_2_1 := by
  have e5 : Pipeline.withArrays spec0 c (V0 m c) (fun w => (dats m 0 c).arrAt w cfg0.N) (Proc.devRef .tc main_v1_0)
      = (dats m 0 c).arrAt 5 cfg0.N := Pipeline.withArrays_arr spec0 launch0.win.arr_inj c _ _ 5
  unfold Pipeline.afterTail₀
  show StableHlo.after hostOps1 _ (Proc.devRef .tc main_v3) = _
  after_results
  rw [e5]

/-- The mask result after the host's slice, from the array the region leaves. -/
theorem tail_mask (c : Dev nD) :
    Pipeline.afterTail₀ cfgs (dats m) 0 (V0 m) [hostOps1] c main_v4
      = extractStridedSlice S128x20000 ![0, 0] ((dats m 0 c).arrAt 6 cfg0.N) slices_S128x20480_S128x20000_0_0 := by
  have e6 : Pipeline.withArrays spec0 c (V0 m c) (fun w => (dats m 0 c).arrAt w cfg0.N) (Proc.devRef .tc main_v1_1)
      = (dats m 0 c).arrAt 6 cfg0.N := Pipeline.withArrays_arr spec0 launch0.win.arr_inj c _ _ 6
  unfold Pipeline.afterTail₀
  show StableHlo.after hostOps1 _ (Proc.devRef .tc main_v4) = _
  after_results
  rw [e6]

/-- The probabilities result is the entries' output probabilities. -/
theorem probs_result (c : Dev nD) :
    Pipeline.afterTail₀ cfgs (dats m) 0 (V0 m) [hostOps1] c main_v3
      = outProbs (m ((c : Thread nD τ).loc main_arg0)) (m ((c : Thread nD τ).loc main_arg1)) (m ((c : Thread nD τ).loc main_arg2))
          (m ((c : Thread nD τ).loc main_arg3)) (m ((c : Thread nD τ).loc main_arg4)) := by
  rw [tail_probs, final5]
  refine funext fun (y : S128x20000x10.Idx) => ?_
  obtain ⟨b, g, q, rfl⟩ : ∃ (b : Fin 128) (g : Fin 20000) (q : Fin 10), y = ix3 b g q := ⟨y 0, y 1, y 2, eq_ix3 y⟩
  have hlt : g.val < 20480 := by have := g.isLt; omega
  refine (transpose_apply [0, 2, 1] _ _ (ix3 b g q) (ix3 b q g) (fun a => by
    match a with
    | ⟨0, _⟩ => rfl
    | ⟨1, _⟩ => rfl
    | ⟨2, _⟩ => rfl)).trans ?_
  refine (extractStridedSlice_apply ![0, 0, 0] _ _ (ix3 b q g) (ix3 b q (⟨g.val, hlt⟩ : Fin 20480)) (fun a => by
    match a with
    | ⟨0, _⟩ => show b.val = 0 + b.val; omega
    | ⟨1, _⟩ => show q.val = 0 + q.val; omega
    | ⟨2, _⟩ => show g.val = 0 + g.val; omega)).trans ?_
  show entry (V m c main_v0 (ix2 b ⟨g.val, hlt⟩)) (V m c main_arg1) (V m c main_arg2) (V m c main_arg3) (V m c main_arg4) q = _
  rw [padded_apply m c b g hlt, V_main_arg1, V_main_arg2, V_main_arg3, V_main_arg4]
  rfl

/-- The mask result is the entries' masks. -/
theorem mask_result (c : Dev nD) :
    Pipeline.afterTail₀ cfgs (dats m) 0 (V0 m) [hostOps1] c main_v4 = outMask (m ((c : Thread nD τ).loc main_arg0)) := by
  rw [tail_mask, final6]
  refine funext fun (y : S128x20000.Idx) => ?_
  obtain ⟨b, g, rfl⟩ : ∃ (b : Fin 128) (g : Fin 20000), y = ix2 b g := ⟨y 0, y 1, eq_ix2 y⟩
  have hlt : g.val < 20480 := by have := g.isLt; omega
  refine (extractStridedSlice_apply ![0, 0] _ _ (ix2 b g) (ix2 b (⟨g.val, hlt⟩ : Fin 20480)) (fun a => by
    match a with
    | ⟨0, _⟩ => show b.val = 0 + b.val; omega
    | ⟨1, _⟩ => show g.val = 0 + g.val; omega)).trans ?_
  show mask (V m c main_v0 (ix2 b ⟨g.val, hlt⟩)) = _
  rw [padded_apply m c b g hlt]
  rfl

/-- The kernel's run: every weakly fair execution ends with the two results at those functions of the arguments, and
    the arguments unchanged. -/
theorem run : θ_run defs (onTc (τ := τ) (main (F := Ideal))) ⟨m, fun _ => 0, ρ⟩ fun r => ∀ c : Dev nD,
      r.2.mem ((c.tc : Thread nD τ).loc main_v3)
        = outProbs (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_v4) = outMask (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans (probs_result m c),
      ((h c).2 main_v4 (Pipeline.mem_restRefs_of main_v4 (by decide) (by decide))).trans (mask_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Results

end
-- ==== Proof.lean ====
/-
  The kernel and its reference compute the same two arrays over the extended reals.

  Both programs apply one small network to every entry of a [128, 20000] array of expression values: the mask [x ≠ 0],
  a hidden layer of 64 rectified units, nine logits, their softmax, and ten output probabilities (1 - mask in bin 0,
  softmax * mask in the other nine). The reference does so on the whole array at once. The kernel pads the array to
  20480 lanes, walks it in ten blocks of 2048 lanes and each block in sixteen chunks of 128 lanes, keeps the bins in
  front of the lanes while it works, and afterwards slices the padding off and transposes back. Entry by entry the two
  are the same function (Cell.lean) of the same expression value: the reference by reading each of its operations at an
  index (RefCell.lean), the kernel by reading a chunk's tile at an index (TileValue.lean), a block as its sixteen tiles
  (ChunkStores.lean), an array as its ten blocks (BlocksToArrays.lean), and the results through the pad, the slices and
  the transpose (KernelResults.lean). No law of arithmetic is needed beyond reading a finite sum in another index order,
  so the finiteness of the inputs is not used. The idealization rewrote nothing, so there is nothing to preserve.
-/
import proofs.«111675_j25323127177636_2_alg».proof.Defs
import proofs.«111675_j25323127177636_2_alg».proof.Proof.Gen.Kernel
import proofs.«111675_j25323127177636_2_alg».proof.Proof.Gen.Kernel.Skeleton
import proofs.«111675_j25323127177636_2_alg».proof.Proof.Gen.Kernel.Loops
import proofs.«111675_j25323127177636_2_alg».proof.Proof.Gen.Kernel.Launch
import proofs.«111675_j25323127177636_2_alg».proof.Proof.Gen.Kernel.Points
import proofs.«111675_j25323127177636_2_alg».proof.Proof.Gen.Kernel.Frame
import proofs.«111675_j25323127177636_2_alg».proof.Proof.Gen.KernelIdeal
import proofs.«111675_j25323127177636_2_alg».proof.Proof.Gen.KernelIdeal.Skeleton
import proofs.«111675_j25323127177636_2_alg».proof.Proof.Gen.KernelIdeal.Loops
import proofs.«111675_j25323127177636_2_alg».proof.Proof.Gen.KernelIdeal.Launch
import proofs.«111675_j25323127177636_2_alg».proof.Proof.Gen.KernelIdeal.Points
import proofs.«111675_j25323127177636_2_alg».proof.Proof.Gen.KernelIdeal.Frame
import proofs.«111675_j25323127177636_2_alg».proof.Proof.Gen.ReferenceIdeal
import proofs.«111675_j25323127177636_2_alg».proof.Proof.Gen.Pre_finite_inputs
import Idealize.ShloMosaic.Adequacy
import Idealize.ShloMosaic.Init

import proofs.«111675_j25323127177636_2_alg».proof.Proof.RefResults
import proofs.«111675_j25323127177636_2_alg».proof.Proof.KernelResults

noncomputable section

namespace Cert.Proof

open Idealize.ShloMosaic Idealize.ShloMosaic.TcCoe Idealize.SL.Sem Cert.Cell

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the results dropped. -/
theorem frame_referenceIdeal : Cert.frame_ReferenceIdeal := fun m ρ _ =>
  (θ_run Cert.ReferenceIdeal.defs _ _).mono (fun _ h c => (h c).2.2) (Cert.ReferenceIdeal.Results.run m ρ)

/-- From memories that agree on the arguments both programs end with the entries' output probabilities and masks. -/
theorem algebraic : Cert.algebraic_KernelIdeal_ReferenceIdeal := by
  intro m ρ m' ρ' _ hagree
  refine ⟨fun c => outProbs (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)),
      fun c => outMask (m ((c.tc : Thread Cert.KernelIdeal.nD Cert.KernelIdeal.τ).loc Cert.KernelIdeal.main_arg0)),
      Cert.KernelIdeal.Results.run m ρ, ?_⟩
  refine (θ_run Cert.ReferenceIdeal.defs _ _).mono (fun _ h c => ?_) (Cert.ReferenceIdeal.Results.run m' ρ')
  obtain ⟨h0, h1, h2, h3, h4⟩ := hagree c
  exact ⟨(h c).1.trans (by rw [h0, h1, h2, h3, h4]), (h c).2.1.trans (by rw [h0]), (h c).2.2⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
